-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S2304x768 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S8192x768 : Shape := ⟨2, ![8192, 768]⟩
abbrev S768x2304 : Shape := ⟨2, ![768, 2304]⟩
abbrev S8192x2304 : Shape := ⟨2, ![8192, 2304]⟩
abbrev S512x768 : Shape := ⟨2, ![512, 768]⟩
abbrev S512x2304 : Shape := ⟨2, ![512, 2304]⟩
abbrev S4x2048x2304 : Shape := ⟨3, ![4, 2048, 2304]⟩
abbrev S1x256x768 : Shape := ⟨3, ![1, 256, 768]⟩
abbrev S1x2048x768 : Shape := ⟨3, ![1, 2048, 768]⟩
abbrev S256x768 : Shape := ⟨2, ![256, 768]⟩
abbrev S2048x768 : Shape := ⟨2, ![2048, 768]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x768 : Shape := ⟨2, ![1, 768]⟩

abbrev nBuf : Space → Nat
  | .hbm => 16
  | .vmem => 19
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S768x2304, .f32⟩
  | .hbm, ⟨6, _⟩ => ⟨S768x2304, .bf16⟩
  | .hbm, ⟨7, _⟩ => ⟨S8192x2304, .bf16⟩
  | .hbm, ⟨8, _⟩ => ⟨S4x2048x2304, .bf16⟩
  | .hbm, ⟨9, _⟩ => ⟨S4x2048x768, .bf16⟩
  | .hbm, ⟨10, _⟩ => ⟨S8192x768, .bf16⟩
  | .hbm, ⟨11, _⟩ => ⟨S768x768, .f32⟩
  | .hbm, ⟨12, _⟩ => ⟨S768x768, .bf16⟩
  | .hbm, ⟨13, _⟩ => ⟨S1x768, .f32⟩
  | .hbm, ⟨14, _⟩ => ⟨S8192x768, .f32⟩
  | .hbm, ⟨15, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S512x2304, .bf16⟩
  | .local _ .vmem, ⟨4, _⟩ => ⟨S512x2304, .bf16⟩
  | .local _ .vmem, ⟨5, _⟩ => ⟨S1x256x768, .bf16⟩
  | .local _ .vmem, ⟨6, _⟩ => ⟨S1x256x768, .bf16⟩
  | .local _ .vmem, ⟨7, _⟩ => ⟨S1x2048x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x2048x768, .bf16⟩
  | .local _ .vmem, ⟨11, _⟩ => ⟨S1x256x768, .bf16⟩
  | .local _ .vmem, ⟨12, _⟩ => ⟨S1x256x768, .bf16⟩
  | .local _ .vmem, ⟨13, _⟩ => ⟨S512x768, .bf16⟩
  | .local _ .vmem, ⟨14, _⟩ => ⟨S512x768, .bf16⟩
  | .local _ .vmem, ⟨15, _⟩ => ⟨S768x768, .bf16⟩
  | .local _ .vmem, ⟨16, _⟩ => ⟨S1x768, .f32⟩
  | .local _ .vmem, ⟨17, _⟩ => ⟨S512x768, .f32⟩
  | .local _ .vmem, ⟨18, _⟩ => ⟨S512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x768_S8192x768 : S4x2048x768.ShapeCasts S8192x768
  transposes_S2304x768_S768x2304_1_0 : S2304x768.Transposes [1, 0] S768x2304
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S8192x2304_S4x2048x2304 : S8192x2304.ShapeCasts S4x2048x2304
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  slices_S256x768_o0_0_S256x64 : S256x768.Slices ![0, 0] S256x64
  slices_S2048x768_o0_0_S2048x64 : S2048x768.Slices ![0, 0] S2048x64
  reduces_S256x2048_S256 : S256x2048.Reduces [1] S256
  shapeCasts_S256_S256x1 : S256.ShapeCasts S256x1
  broadcasts_S256x1_S256x2048 : S256x1.Broadcasts S256x2048
  slices_S256x768_o0_64_S256x64 : S256x768.Slices ![0, 64] S256x64
  slices_S2048x768_o0_64_S2048x64 : S2048x768.Slices ![0, 64] S2048x64
  slices_S256x768_o0_128_S256x64 : S256x768.Slices ![0, 128] S256x64
  slices_S2048x768_o0_128_S2048x64 : S2048x768.Slices ![0, 128] S2048x64
  slices_S256x768_o0_192_S256x64 : S256x768.Slices ![0, 192] S256x64
  slices_S2048x768_o0_192_S2048x64 : S2048x768.Slices ![0, 192] S2048x64
  slices_S256x768_o0_256_S256x64 : S256x768.Slices ![0, 256] S256x64
  slices_S2048x768_o0_256_S2048x64 : S2048x768.Slices ![0, 256] S2048x64
  slices_S256x768_o0_320_S256x64 : S256x768.Slices ![0, 320] S256x64
  slices_S2048x768_o0_320_S2048x64 : S2048x768.Slices ![0, 320] S2048x64
  slices_S256x768_o0_384_S256x64 : S256x768.Slices ![0, 384] S256x64
  slices_S2048x768_o0_384_S2048x64 : S2048x768.Slices ![0, 384] S2048x64
  slices_S256x768_o0_448_S256x64 : S256x768.Slices ![0, 448] S256x64
  slices_S2048x768_o0_448_S2048x64 : S2048x768.Slices ![0, 448] S2048x64
  slices_S256x768_o0_512_S256x64 : S256x768.Slices ![0, 512] S256x64
  slices_S2048x768_o0_512_S2048x64 : S2048x768.Slices ![0, 512] S2048x64
  slices_S256x768_o0_576_S256x64 : S256x768.Slices ![0, 576] S256x64
  slices_S2048x768_o0_576_S2048x64 : S2048x768.Slices ![0, 576] S2048x64
  slices_S256x768_o0_640_S256x64 : S256x768.Slices ![0, 640] S256x64
  slices_S2048x768_o0_640_S2048x64 : S2048x768.Slices ![0, 640] S2048x64
  slices_S256x768_o0_704_S256x64 : S256x768.Slices ![0, 704] S256x64
  slices_S2048x768_o0_704_S2048x64 : S2048x768.Slices ![0, 704] S2048x64
  concatenates_S256x64_S256x64_S256x64_S256x64_S256x64_S256x64_S256x64_S256x64_S256x64_S256x64_S256x64_S256x64_S256x768_d1 : Shape.Concatenates [S256x64, S256x64, S256x64, S256x64, S256x64, S256x64, S256x64, S256x64, S256x64, S256x64, S256x64, S256x64] S256x768 1
  shapeCasts_S256x768_S1x256x768 : S256x768.ShapeCasts S1x256x768
  packedbf16_S1x256x768_S1x256x768_0_0_0 : (Rect.unit (s := S1x256x768) ![0, 0, 0] S1x256x768.size inb_S1x256x768_S1x256x768_0_0_0).PackedRows (EltTy.packing .bf16)
  transposes_S768x768_S768x768_1_0 : S768x768.Transposes [1, 0] S768x768
  shapeCasts_S768_S1x768 : S768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S8192x768_S4x2048x768 : S8192x768.ShapeCasts S4x2048x768
  dot_S512x768_S768x2304_S512x2304_1_0_0_1_n_n_wf : DotDims.WF S512x768 S768x2304 S512x2304 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S8192x2304.size a
  hwx0_2 : ∀ i : grid0.Coords, EltTy.bits .bf16 = 32 ∨ (Rect.block (s := S8192x2304) S512x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S4x2048x2304.size a
  hwx1_0 : ∀ i : grid1.Coords, EltTy.bits .bf16 = 32 ∨ (Rect.block (s := S4x2048x2304) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S4x2048x2304.size a
  hwx1_1 : ∀ i : grid1.Coords, EltTy.bits .bf16 = 32 ∨ (Rect.block (s := S4x2048x2304) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S4x2048x2304.size a
  hwx1_2 : ∀ i : grid1.Coords, EltTy.bits .bf16 = 32 ∨ (Rect.block (s := S4x2048x2304) S1x2048x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x768.size a ≤ S4x2048x768.size a
  hwx1_3 : ∀ i : grid1.Coords, EltTy.bits .bf16 = 32 ∨ (Rect.block (s := S4x2048x768) S1x256x768.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .bf16 = 32 ∨ (Rect.block (s := S8192x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S8192x768.size a
  hwx2_3 : ∀ i : grid2.Coords, EltTy.bits .f32 = 32 ∨ (Rect.block (s := S8192x768) S512x768.size (cc2_transform_3 i) (hinb2_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S4x2048x2304 : Shape := ⟨3, ![4, 2048, 2304]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S1x1x768 : Shape := ⟨3, ![1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S4x2048x2304, .f32⟩
  | .hbm, ⟨5, _⟩ => ⟨S4x2048x768, .f32⟩
  | .hbm, ⟨6, _⟩ => ⟨S4x2048x768, .f32⟩
  | .hbm, ⟨7, _⟩ => ⟨S4x2048x768, .f32⟩
  | .hbm, ⟨8, _⟩ => ⟨S4x2048x12x64, .f32⟩
  | .hbm, ⟨9, _⟩ => ⟨S4x12x2048x64, .f32⟩
  | .hbm, ⟨10, _⟩ => ⟨S4x2048x12x64, .f32⟩
  | .hbm, ⟨11, _⟩ => ⟨S4x12x2048x64, .f32⟩
  | .hbm, ⟨12, _⟩ => ⟨S4x2048x12x64, .f32⟩
  | .hbm, ⟨13, _⟩ => ⟨S4x12x2048x64, .f32⟩
  | .hbm, ⟨14, _⟩ => ⟨S4x12x2048x2048, .f32⟩
  | .hbm, ⟨15, _⟩ => ⟨S_, .f32⟩
  | .hbm, ⟨16, _⟩ => ⟨S4x12x2048x2048, .f32⟩
  | .hbm, ⟨17, _⟩ => ⟨S4x12x2048x2048, .f32⟩
  | .hbm, ⟨18, _⟩ => ⟨S_, .f32⟩
  | .hbm, ⟨19, _⟩ => ⟨S4x12x2048, .f32⟩
  | .hbm, ⟨20, _⟩ => ⟨S_, .f32⟩
  | .hbm, ⟨21, _⟩ => ⟨S4x12x2048, .f32⟩
  | .hbm, ⟨22, _⟩ => ⟨S4x12x2048, .f32⟩
  | .hbm, ⟨23, _⟩ => ⟨S4x12x2048x1, .f32⟩
  | .hbm, ⟨24, _⟩ => ⟨S4x12x2048x2048, .f32⟩
  | .hbm, ⟨25, _⟩ => ⟨S4x12x2048x2048, .f32⟩
  | .hbm, ⟨26, _⟩ => ⟨S4x12x2048x2048, .f32⟩
  | .hbm, ⟨27, _⟩ => ⟨S_, .f32⟩
  | .hbm, ⟨28, _⟩ => ⟨S4x12x2048, .f32⟩
  | .hbm, ⟨29, _⟩ => ⟨S4x12x2048x1, .f32⟩
  | .hbm, ⟨30, _⟩ => ⟨S4x12x2048x2048, .f32⟩
  | .hbm, ⟨31, _⟩ => ⟨S4x12x2048x2048, .f32⟩
  | .hbm, ⟨32, _⟩ => ⟨S4x12x2048x64, .f32⟩
  | .hbm, ⟨33, _⟩ => ⟨S4x2048x12x64, .f32⟩
  | .hbm, ⟨34, _⟩ => ⟨S4x2048x768, .f32⟩
  | .hbm, ⟨35, _⟩ => ⟨S4x2048x768, .f32⟩
  | .hbm, ⟨36, _⟩ => ⟨S1x1x768, .f32⟩
  | .hbm, ⟨37, _⟩ => ⟨S4x2048x768, .f32⟩
  | .hbm, ⟨38, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.KernelRegion0.lean ====
/-
  The first projection kernel (a [512, 768] block of rows against the whole [768, 2304] weight, one [512, 2304]
  block of the product per grid point) as the pipeline runs it: what each window's staging buffer holds before and
  after the body at a grid point, the body's run on whole staging buffers, and the pipeline's obligation at every
  point. Stated at any contents V of the core's buffers when the region is entered, and at any float instance.
-/
import proofs.«147996_j49383533969427_2_alg».proof.Proof.Gen.Kernel.Launch
import proofs.«147996_j49383533969427_2_alg».proof.Proof.Gen.Kernel.Skeleton
import proofs.«147996_j49383533969427_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window: its current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's window: fetched once, its staging buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangle of the product block. -/
abbrev r0_out : Rect S512x2304 := Rect.unit (s := S512x2304) ![0, 0] S512x2304.size inb_S512x2304_S512x2304_0_0
abbrev r0_x : Rect S512x768 := Rect.unit (s := S512x768) ![0, 0] S512x768.size inb_S512x768_S512x768_0_0
abbrev r0_w : Rect S768x2304 := Rect.unit (s := S768x2304) ![0, 0] S768x2304.size inb_S768x2304_S768x2304_0_0

/-- What the body leaves in the product's staging buffer: its one store, of the product of the two loaded blocks. -/
def out0_2 (x0 : Vec F S512x768 .f32) (x1 : Vec F S768x2304 .bf16) : Vec F S512x2304 .bf16 :=
  View.canon [⟨r0_out, k0_pay1 (View.ld x0 r0_x) (View.ld x1 r0_w)⟩]

/-- The one store covers the buffer. -/
theorem cover0_2 (p0 : Vec F S512x2304 .bf16) (y : S512x2304.Idx) :
    ∃ pc ∈ ([⟨r0_out, p0⟩] : List (View.Piece (Elt F) S512x2304 .bf16)), y ∈ pc.1.set :=
  View.cover_of_tiled [⟨r0_out, p0⟩] S512x2304.size (by rfl) y

set_option maxHeartbeats 1000000 in
/-- The body on whole staging buffers: the two inputs stay as they were, the output ends at out0_2 of them. -/
theorem sound_kernel0 (c : Dev nD) (E : Set ℕ) (i : grid0.Coords)
    (arg1 : Memref sig .tc .vmem S512x768 .f32) (harg1 : arg1.IsWhole) (arg2 : Memref sig .tc .vmem S768x2304 .bf16) (harg2 : arg2.IsWhole)
    (arg3 : Memref sig .tc .vmem S512x2304 .bf16) (harg3 : arg3.IsWhole)
    (x0 : Vec F S512x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first projection on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelAttnBody.lean ====
/-
  The attention kernel as the pipeline runs it, first half: the value its body stores, as one function of the three
  blocks it loads (a [1, 256, 768] block of query rows, and the [1, 2048, 768] key and value column blocks of the same
  batch), and the body's run on whole staging buffers. The body slices each block into twelve 64-column heads, and per
  head multiplies queries against keys, scales, subtracts the row maximum, exponentiates, divides by the row sum,
  multiplies by the values; the twelve [256, 64] results are laid side by side and stored as one [1, 256, 768] block.
  Stated at any float instance.
-/
import proofs.«147996_j49383533969427_2_alg».proof.Proof.Gen.Kernel.Launch
import proofs.«147996_j49383533969427_2_alg».proof.Proof.Gen.Kernel.Skeleton
import proofs.«147996_j49383533969427_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles of the query/output block and of the key/value blocks. -/
abbrev r1_q : Rect S1x256x768 := Rect.unit (s := S1x256x768) ![0, 0, 0] S1x256x768.size inb_S1x256x768_S1x256x768_0_0_0
abbrev r1_kv : Rect S1x2048x768 := Rect.unit (s := S1x2048x768) ![0, 0, 0] S1x2048x768.size inb_S1x2048x768_S1x2048x768_0_0_0

/-- The value the body stores, from the three blocks it loads: the body's pure steps composed in program order. -/
def attnVal (v0 : Vec F S1x256x768 .bf16) (v2 v4 : Vec F S1x2048x768 .bf16) : FVec F S1x256x768 .bf16 :=
  k1_pay23 (k1_pay1 v0) (k1_pay2 v2) (k1_pay3 v4) (k1_pay4 v0 v2 v4) (k1_pay7 (k1_pay5 v4) (k1_pay6 v0 v2)) (k1_pay8 (k1_pay1 v0) (k1_pay2 v2) (k1_pay3 v4)) (k1_pay9 (k1_pay1 v0) (k1_pay2 v2) (k1_pay3 v4)) (k1_pay13 (k1_pay10 (k1_pay3 v4)) (k1_pay11 (k1_pay1 v0) (k1_pay2 v2)) (k1_pay12 (k1_pay1 v0) (k1_pay2 v2))) (k1_pay14 (k1_pay1 v0) (k1_pay2 v2) (k1_pay3 v4)) (k1_pay15 (k1_pay1 v0) (k1_pay2 v2) (k1_pay3 v4)) (k1_pay18 (k1_pay3 v4) (k1_pay16 (k1_pay1 v0)) (k1_pay17 (k1_pay2 v2))) (k1_pay19 (k1_pay1 v0) (k1_pay2 v2) (k1_pay3 v4)) (k1_pay20 (k1_pay3 v4)) (k1_pay21 (k1_pay1 v0) (k1_pay2 v2)) (k1_pay22 (k1_pay1 v0) (k1_pay2 v2))

/-- What the body leaves in the output's staging buffer: its one store. -/
def out1_3 (x0 : Vec F S1x256x768 .bf16) (x1 x2 : Vec F S1x2048x768 .bf16) : Vec F S1x256x768 .bf16 :=
  View.canon [⟨r1_q, attnVal (View.ld x0 r1_q) (View.ld x1 r1_kv) (View.ld x2 r1_kv)⟩]

/-- The one store covers the buffer. -/
theorem cover1_3 (p0 : Vec F S1x256x768 .bf16) (y : S1x256x768.Idx) :
    ∃ pc ∈ ([⟨r1_q, p0⟩] : List (View.Piece (Elt F) S1x256x768 .bf16)), y ∈ pc.1.set :=
  View.cover_of_tiled [⟨r1_q, p0⟩] S1x256x768.size (by rfl) y

set_option maxHeartbeats 4000000 in
/-- The body on whole staging buffers: the three inputs stay as they were, the output ends at out1_3 of them. -/
theorem sound_kernel1 (c : Dev nD) (E : Set ℕ) (i : grid1.Coords)
    (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S1x256x768 .bf16) (harg5 : arg5.IsWhole)
    (x0 : Vec F S1x256x768 .bf16) (x1 x2 : Vec F S1x2048x768 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  dsimp only
  exact View.read_writes_eq_canon _ _ _ (cover1_3 _)

end Cert.Kernel.Hand

end
-- ==== Proof.KernelRegion1.lean ====
/-
  The attention kernel as the pipeline runs it, second half: what each window's staging buffer holds before and after
  the body at a grid point, the pipeline's proof data, and its obligation on the body at every point. The query, key and
  value windows all read ONE array (the joint projection), so each holds a part of that array's share: the left half of
  the left half, the right half of the left half, and the right half. Stated at any contents V of the core's buffers
  when the region is entered, and at any float instance.
-/
import proofs.«147996_j49383533969427_2_alg».proof.Proof.KernelAttnBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window: its current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window: fetched once per batch, its staging buffer holds that batch's key columns at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window: fetched once per batch, its staging buffer holds that batch's value columns at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The three input windows' parts of the joint projection's share. -/
def share1 : Fin cfg1.W → PosShare TreeShare
  | ⟨0, _⟩ => fullShare.left.left
  | ⟨1, _⟩ => fullShare.left.right
  | ⟨2, _⟩ => fullShare.right
  | ⟨3, _⟩ => fullShare

/-- The proof data of the attention kernel on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelAttnArrays.lean ====
/-
  The attention kernel's arrays among a core's unscoped buffers. Its query, key and value windows all read the joint
  projection, so that array's full share is split in three at the region's entry — the left half of the left half, the
  right half of the left half, the right half — and joined again at its exit; the output array is held whole.
-/
import proofs.«147996_j49383533969427_2_alg».proof.Proof.KernelRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the attention kernel's four windows: the joint projection and the output. -/
theorem arrBufs1_eq (c : Dev nD) :
    (Pipeline.arrBufs (Ix := Unit) (Name := ℕ) (U := UR sig nD τ) (Lvl := ℕ) spec1 c (V c) : sProp 𝕄)
      = iprop((((c : Thread nD τ).loc main_v4) ↦{fullShare} V c main_v4) ∗ (((c : Thread nD τ).loc main_v5) ↦{fullShare} V c main_v5)) := by
  unfold Pipeline.arrBufs
  exact bigSep_eq_bigSepL_of_eq [main_v4, main_v5] (by decide) (by decide) _

theorem share1_0 (c : Dev nD) : (dat1 V c).share 0 = fullShare.left.left := by unfold Dat.share; rfl
theorem share1_1 (c : Dev nD) : (dat1 V c).share 1 = fullShare.left.right := by unfold Dat.share; rfl
theorem share1_2 (c : Dev nD) : (dat1 V c).share 2 = fullShare.right := by unfold Dat.share; rfl
theorem share1_3 (c : Dev nD) : (dat1 V c).share 3 = fullShare := by unfold Dat.share; rfl

/-- The proof data's arrays, window by window: three parts of the joint projection's share, and the output whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v4) ↦{fullShare.left.left} G 0) ∗ (((c : Thread nD τ).loc main_v4) ↦{fullShare.left.right} G 1)
          ∗ (((c : Thread nD τ).loc main_v4) ↦{fullShare.right} G 2) ∗ (((c : Thread nD τ).loc main_v5) ↦{fullShare} G 3)) := by
  unfold Dat.arrays
  rw [bigSep_W1, (arr_whole1 0).set_eq_univ, (arr_whole1 3).set_eq_univ, share1_0, share1_1, share1_2, share1_3]

/-- At entry: the unscoped buffers are the attention kernel's arrays, the joint projection's share split in three,
    and the rest. -/
theorem split1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [Pipeline.PerCore.unscopedBufs_split₀ (fun (_ : Dev nD) (_ : Unit) => cfg1) () c (fun w => winFacts₀1.arr_unscoped w) (V c),
    arrBufs1_eq, arrays1_eq]
  iintro ⟨⟨H4, H5⟩, Hrest⟩
  ihave H4' := (pointsTo_share (PosShare.mem_left_op_right fullShare)).1 $$ H4
  icases H4' with ⟨HL, HR⟩
  ihave HL' := (pointsTo_share (PosShare.mem_left_op_right fullShare.left)).1 $$ HL
  icases HL' with ⟨HLL, HLR⟩
  isplitr [Hrest]
  swap; · iexact Hrest
  isplitl [HLL]; · iexact HLL
  isplitl [HLR]; · iexact HLR
  isplitl [HR]; · iexact HR
  iexact H5

/-- At exit: the arrays at what the pipeline leaves, and the rest as entered, are the unscoped buffers at any contents V'
    that have the output array at what the pipeline leaves and agree with V elsewhere. -/
theorem join1 (V' : (c : Dev nD) → (b : Ref sig .tc) → Buf (Elt F) ((c : Thread nD τ).loc b)) (c : Dev nD)
    (hout : V' c main_v5 = (dat1 V c).arrAt 3 cfg1.N) (hrest : ∀ b : Ref sig .tc, b ≠ main_v5 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  rw [Pipeline.PerCore.unscopedBufs_split₀ (fun (_ : Dev nD) (_ : Unit) => cfg1) () c (fun w => winFacts₀1.arr_unscoped w) (V' c),
    arrBufs1_eq, arrays1_eq]
  rw [(dat1 V c).arrAt_in 0 rfl cfg1.N, (dat1 V c).arrAt_in 1 rfl cfg1.N, (dat1 V c).arrAt_in 2 rfl cfg1.N]
  rw [hout, hrest main_v4 (by decide)]
  have hR : (Pipeline.unscopedRest (Ix := Unit) (Name := ℕ) (U := UR sig nD τ) (Lvl := ℕ) spec1 c (V' c) : sProp 𝕄)
      = Pipeline.unscopedRest (Ix := Unit) (Name := ℕ) (U := UR sig nD τ) (Lvl := ℕ) spec1 c (V c) := by
    unfold Pipeline.unscopedRest
    exact bigSep_congr fun b hb => by
      rw [hrest b (fun e => (Finset.mem_sdiff.mp hb).2 (Finset.mem_image.mpr ⟨3, Finset.mem_univ _, e.symm⟩))]
  rw [hR]
  iintro ⟨⟨HLL, HLR, HR, H5⟩, Hrest⟩
  isplitr [Hrest]
  swap; · iexact Hrest
  isplitr [H5]
  swap; · iexact H5
  ihave HL := (pointsTo_share (PosShare.mem_left_op_right fullShare.left)).2 $$ [HLL HLR]
  · isplitl [HLL]; · iexact HLL
    iexact HLR
  ihave H4 := (pointsTo_share (PosShare.mem_left_op_right fullShare)).2 $$ [HL HR]
  · isplitl [HL]; · iexact HL
    iexact HR
  iexact H4

end Cert.Kernel.Hand

end
-- ==== Proof.KernelRegion2.lean ====
/-
  The output projection kernel (a [512, 768] block of rows against the whole [768, 768] weight, plus the [1, 768] bias
  row broadcast down the block, one [512, 768] block of the result per grid point) as the pipeline runs it: what each
  window's staging buffer holds before and after the body at a grid point, the body's run on whole staging buffers,
  and the pipeline's obligation at every point. Stated at any contents V of the core's buffers when the region is
  entered, and at any float instance.
-/
import proofs.«147996_j49383533969427_2_alg».proof.Proof.Gen.Kernel.Launch
import proofs.«147996_j49383533969427_2_alg».proof.Proof.Gen.Kernel.Skeleton
import proofs.«147996_j49383533969427_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' window: its current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's window: fetched once, its staging buffer holds the whole weight at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's window: fetched once, its staging buffer holds the row at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles. -/
abbrev r2_x : Rect S512x768 := Rect.unit (s := S512x768) ![0, 0] S512x768.size inb_S512x768_S512x768_0_0
abbrev r2_w : Rect S768x768 := Rect.unit (s := S768x768) ![0, 0] S768x768.size inb_S768x768_S768x768_0_0
abbrev r2_b : Rect S1x768 := Rect.unit (s := S1x768) ![0, 0] S1x768.size inb_S1x768_S1x768_0_0

/-- What the body leaves in the result's staging buffer: its one store, of the product plus the bias row. -/
def out2_3 (x0 : Vec F S512x768 .bf16) (x1 : Vec F S768x768 .bf16) (x2 : Vec F S1x768 .f32) : Vec F S512x768 .f32 :=
  View.canon [⟨r2_x, k2_pay1 (View.ld x0 r2_x) (View.ld x1 r2_w) (View.ld x2 r2_b)⟩]

/-- The one store covers the buffer. -/
theorem cover2_3 (p0 : Vec F S512x768 .f32) (y : S512x768.Idx) :
    ∃ pc ∈ ([⟨r2_x, p0⟩] : List (View.Piece (Elt F) S512x768 .f32)), y ∈ pc.1.set :=
  View.cover_of_tiled [⟨r2_x, p0⟩] S512x768.size (by rfl) y

set_option maxHeartbeats 1000000 in
/-- The body on whole staging buffers: the three inputs stay as they were, the output ends at out2_3 of them. -/
theorem sound_kernel2 (c : Dev nD) (E : Set ℕ) (i : grid2.Coords)
    (arg1 : Memref sig .tc .vmem S512x768 .bf16) (harg1 : arg1.IsWhole) (arg2 : Memref sig .tc .vmem S768x768 .bf16) (harg2 : arg2.IsWhole)
    (arg3 : Memref sig .tc .vmem S1x768 .f32) (harg3 : arg3.IsWhole) (arg4 : Memref sig .tc .vmem S512x768 .f32) (harg4 : arg4.IsWhole)
    (x0 : Vec F S512x768 .bf16) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_bias_kernel i arg1 harg1 arg2 harg2 arg3 harg3 arg4 harg4) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the output projection on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRun.lean ====
/-
  The whole program run: a stretch of host operations, the first projection, a reshape, the attention kernel, a stretch
  of host operations, the output projection, a reshape. The contents of the core's buffers are followed from the
  launch through the seven boundaries between these items; each kernel region is entered from every unscoped buffer
  at the boundary's contents and left with its result array at what its write-backs leave, every other buffer as
  entered. Every weakly fair execution then terminates, nothing faulting, in a state whose unscoped buffers hold the
  last boundary's contents. Stated at any float instance.
-/
import proofs.«147996_j49383533969427_2_alg».proof.Proof.KernelRegion0
import proofs.«147996_j49383533969427_2_alg».proof.Proof.KernelAttnArrays
import proofs.«147996_j49383533969427_2_alg».proof.Proof.KernelRegion2
import proofs.«147996_j49383533969427_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the first host stretch (the rows flattened, the projection weight transposed). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first projection: its arrays at what the pipeline leaves. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshape of the joint projection to [4, 2048, 2304]. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention kernel: only its output array changes (its three input windows read one array). -/
def B4 (c : Dev nD) : Valuation τ sig (Elt F) :=
  Function.update (B3 m ρ c) (Proc.devRef .tc main_v5) ((dat1 (E3 m ρ) c).arrAt 3 cfg1.N)
theorem B4_out (c : Dev nD) : B4 m ρ c (Proc.devRef .tc main_v5) = (dat1 (E3 m ρ) c).arrAt 3 cfg1.N := by
  unfold B4; exact Function.update_self ..
theorem B4_of_ne (c : Dev nD) (b : Ref sig .tc) (hb : b ≠ main_v5) :
    B4 m ρ c (Proc.devRef .tc b) = B3 m ρ c (Proc.devRef .tc b) := by
  unfold B4; exact Function.update_of_ne (StableHlo.devRef_ne_of_ne hb) ..
abbrev E4 : (c : Dev nD) → (b : Ref sig .tc) → Buf (Elt F) ((c : Thread nD τ).loc b) := fun c b => B4 m ρ c b

/-- After the third host stretch (the attention output flattened, the output weight transposed, the bias as a row). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After the output projection: its arrays at what the pipeline leaves. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- After the last reshape, to [4, 2048, 768]. -/
abbrev B7 : Dev nD → Valuation τ sig (Elt F) := fun c => StableHlo.after hostOps3 (B6 m ρ c)

/-- Argument 0 reaches the last boundary as launched: no host stretch writes it and no region changes it. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

/-- Argument 1 reaches the last boundary as launched: no host stretch writes it and no region changes it. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

/-- Argument 2 reaches the last boundary as launched: no host stretch writes it and no region changes it. -/
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

/-- Argument 3 reaches the last boundary as launched: no host stretch writes it and no region changes it. -/
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the same thread state; its three input windows share the joint projection, so its
    arrays are split out of the unscoped buffers and put back by hand (split1, join1). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := split1 (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E3 m ρ c))
        ⊢ (unscopedBufs (Ix := Unit) (Name := ℕ) (U := UR sig nD τ) (Lvl := ℕ) c (E4 m ρ c) : sProp 𝕄) :=
      join1 (E3 m ρ) (E4 m ρ) c (B4_out m ρ c) (fun b hb => B4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and in every
    final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

end Cert.Kernel.Hand

end
-- ==== Proof.KernelIdealRegion0.lean ====
/-
  The first projection kernel (a [512, 768] block of rows against the whole [768, 2304] weight, one [512, 2304]
  block of the product per grid point) as the pipeline runs it: what each window's staging buffer holds before and
  after the body at a grid point, the body's run on whole staging buffers, and the pipeline's obligation at every
  point. Stated at any contents V of the core's buffers when the region is entered, and at any float instance.
-/
import proofs.«147996_j49383533969427_2_alg».proof.Proof.Gen.KernelIdeal.Launch
import proofs.«147996_j49383533969427_2_alg».proof.Proof.Gen.KernelIdeal.Skeleton
import proofs.«147996_j49383533969427_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window: its current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's window: fetched once, its staging buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangle of the product block. -/
abbrev r0_out : Rect S512x2304 := Rect.unit (s := S512x2304) ![0, 0] S512x2304.size inb_S512x2304_S512x2304_0_0
abbrev r0_x : Rect S512x768 := Rect.unit (s := S512x768) ![0, 0] S512x768.size inb_S512x768_S512x768_0_0
abbrev r0_w : Rect S768x2304 := Rect.unit (s := S768x2304) ![0, 0] S768x2304.size inb_S768x2304_S768x2304_0_0

/-- What the body leaves in the product's staging buffer: its one store, of the product of the two loaded blocks. -/
def out0_2 (x0 : Vec F S512x768 .f32) (x1 : Vec F S768x2304 .bf16) : Vec F S512x2304 .bf16 :=
  View.canon [⟨r0_out, k0_pay1 (View.ld x0 r0_x) (View.ld x1 r0_w)⟩]

/-- The one store covers the buffer. -/
theorem cover0_2 (p0 : Vec F S512x2304 .bf16) (y : S512x2304.Idx) :
    ∃ pc ∈ ([⟨r0_out, p0⟩] : List (View.Piece (Elt F) S512x2304 .bf16)), y ∈ pc.1.set :=
  View.cover_of_tiled [⟨r0_out, p0⟩] S512x2304.size (by rfl) y

set_option maxHeartbeats 1000000 in
/-- The body on whole staging buffers: the two inputs stay as they were, the output ends at out0_2 of them. -/
theorem sound_kernel0 (c : Dev nD) (E : Set ℕ) (i : grid0.Coords)
    (arg1 : Memref sig .tc .vmem S512x768 .f32) (harg1 : arg1.IsWhole) (arg2 : Memref sig .tc .vmem S768x2304 .bf16) (harg2 : arg2.IsWhole)
    (arg3 : Memref sig .tc .vmem S512x2304 .bf16) (harg3 : arg3.IsWhole)
    (x0 : Vec F S512x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first projection on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealAttnBody.lean ====
/-
  The attention kernel as the pipeline runs it, first half: the value its body stores, as one function of the three
  blocks it loads (a [1, 256, 768] block of query rows, and the [1, 2048, 768] key and value column blocks of the same
  batch), and the body's run on whole staging buffers. The body slices each block into twelve 64-column heads, and per
  head multiplies queries against keys, scales, subtracts the row maximum, exponentiates, divides by the row sum,
  multiplies by the values; the twelve [256, 64] results are laid side by side and stored as one [1, 256, 768] block.
  Stated at any float instance.
-/
import proofs.«147996_j49383533969427_2_alg».proof.Proof.Gen.KernelIdeal.Launch
import proofs.«147996_j49383533969427_2_alg».proof.Proof.Gen.KernelIdeal.Skeleton
import proofs.«147996_j49383533969427_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles of the query/output block and of the key/value blocks. -/
abbrev r1_q : Rect S1x256x768 := Rect.unit (s := S1x256x768) ![0, 0, 0] S1x256x768.size inb_S1x256x768_S1x256x768_0_0_0
abbrev r1_kv : Rect S1x2048x768 := Rect.unit (s := S1x2048x768) ![0, 0, 0] S1x2048x768.size inb_S1x2048x768_S1x2048x768_0_0_0

/-- The value the body stores, from the three blocks it loads: the body's pure steps composed in program order. -/
def attnVal (v0 : Vec F S1x256x768 .bf16) (v2 v4 : Vec F S1x2048x768 .bf16) : FVec F S1x256x768 .bf16 :=
  k1_pay23 (k1_pay1 v0) (k1_pay2 v2) (k1_pay3 v4) (k1_pay4 v0 v2 v4) (k1_pay7 (k1_pay5 v4) (k1_pay6 v0 v2)) (k1_pay8 (k1_pay1 v0) (k1_pay2 v2) (k1_pay3 v4)) (k1_pay9 (k1_pay1 v0) (k1_pay2 v2) (k1_pay3 v4)) (k1_pay13 (k1_pay10 (k1_pay3 v4)) (k1_pay11 (k1_pay1 v0) (k1_pay2 v2)) (k1_pay12 (k1_pay1 v0) (k1_pay2 v2))) (k1_pay14 (k1_pay1 v0) (k1_pay2 v2) (k1_pay3 v4)) (k1_pay15 (k1_pay1 v0) (k1_pay2 v2) (k1_pay3 v4)) (k1_pay18 (k1_pay3 v4) (k1_pay16 (k1_pay1 v0)) (k1_pay17 (k1_pay2 v2))) (k1_pay19 (k1_pay1 v0) (k1_pay2 v2) (k1_pay3 v4)) (k1_pay20 (k1_pay3 v4)) (k1_pay21 (k1_pay1 v0) (k1_pay2 v2)) (k1_pay22 (k1_pay1 v0) (k1_pay2 v2))

/-- What the body leaves in the output's staging buffer: its one store. -/
def out1_3 (x0 : Vec F S1x256x768 .bf16) (x1 x2 : Vec F S1x2048x768 .bf16) : Vec F S1x256x768 .bf16 :=
  View.canon [⟨r1_q, attnVal (View.ld x0 r1_q) (View.ld x1 r1_kv) (View.ld x2 r1_kv)⟩]

/-- The one store covers the buffer. -/
theorem cover1_3 (p0 : Vec F S1x256x768 .bf16) (y : S1x256x768.Idx) :
    ∃ pc ∈ ([⟨r1_q, p0⟩] : List (View.Piece (Elt F) S1x256x768 .bf16)), y ∈ pc.1.set :=
  View.cover_of_tiled [⟨r1_q, p0⟩] S1x256x768.size (by rfl) y

set_option maxHeartbeats 4000000 in
/-- The body on whole staging buffers: the three inputs stay as they were, the output ends at out1_3 of them. -/
theorem sound_kernel1 (c : Dev nD) (E : Set ℕ) (i : grid1.Coords)
    (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S1x256x768 .bf16) (harg5 : arg5.IsWhole)
    (x0 : Vec F S1x256x768 .bf16) (x1 x2 : Vec F S1x2048x768 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  dsimp only
  exact View.read_writes_eq_canon _ _ _ (cover1_3 _)

end Cert.KernelIdeal.Hand

end
-- ==== Proof.KernelIdealRegion1.lean ====
/-
  The attention kernel as the pipeline runs it, second half: what each window's staging buffer holds before and after
  the body at a grid point, the pipeline's proof data, and its obligation on the body at every point. The query, key and
  value windows all read ONE array (the joint projection), so each holds a part of that array's share: the left half of
  the left half, the right half of the left half, and the right half. Stated at any contents V of the core's buffers
  when the region is entered, and at any float instance.
-/
import proofs.«147996_j49383533969427_2_alg».proof.Proof.KernelIdealAttnBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window: its current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window: fetched once per batch, its staging buffer holds that batch's key columns at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window: fetched once per batch, its staging buffer holds that batch's value columns at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The three input windows' parts of the joint projection's share. -/
def share1 : Fin cfg1.W → PosShare TreeShare
  | ⟨0, _⟩ => fullShare.left.left
  | ⟨1, _⟩ => fullShare.left.right
  | ⟨2, _⟩ => fullShare.right
  | ⟨3, _⟩ => fullShare

/-- The proof data of the attention kernel on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := share1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealAttnArrays.lean ====
/-
  The attention kernel's arrays among a core's unscoped buffers. Its query, key and value windows all read the joint
  projection, so that array's full share is split in three at the region's entry — the left half of the left half, the
  right half of the left half, the right half — and joined again at its exit; the output array is held whole.
-/
import proofs.«147996_j49383533969427_2_alg».proof.Proof.KernelIdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the attention kernel's four windows: the joint projection and the output. -/
theorem arrBufs1_eq (c : Dev nD) :
    (Pipeline.arrBufs (Ix := Unit) (Name := ℕ) (U := UR sig nD τ) (Lvl := ℕ) spec1 c (V c) : sProp 𝕄)
      = iprop((((c : Thread nD τ).loc main_v4) ↦{fullShare} V c main_v4) ∗ (((c : Thread nD τ).loc main_v5) ↦{fullShare} V c main_v5)) := by
  unfold Pipeline.arrBufs
  exact bigSep_eq_bigSepL_of_eq [main_v4, main_v5] (by decide) (by decide) _

theorem share1_0 (c : Dev nD) : (dat1 V c).share 0 = fullShare.left.left := by unfold Dat.share; rfl
theorem share1_1 (c : Dev nD) : (dat1 V c).share 1 = fullShare.left.right := by unfold Dat.share; rfl
theorem share1_2 (c : Dev nD) : (dat1 V c).share 2 = fullShare.right := by unfold Dat.share; rfl
theorem share1_3 (c : Dev nD) : (dat1 V c).share 3 = fullShare := by unfold Dat.share; rfl

/-- The proof data's arrays, window by window: three parts of the joint projection's share, and the output whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v4) ↦{fullShare.left.left} G 0) ∗ (((c : Thread nD τ).loc main_v4) ↦{fullShare.left.right} G 1)
          ∗ (((c : Thread nD τ).loc main_v4) ↦{fullShare.right} G 2) ∗ (((c : Thread nD τ).loc main_v5) ↦{fullShare} G 3)) := by
  unfold Dat.arrays
  rw [bigSep_W1, (arr_whole1 0).set_eq_univ, (arr_whole1 3).set_eq_univ, share1_0, share1_1, share1_2, share1_3]

/-- At entry: the unscoped buffers are the attention kernel's arrays, the joint projection's share split in three,
    and the rest. -/
theorem split1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [Pipeline.PerCore.unscopedBufs_split₀ (fun (_ : Dev nD) (_ : Unit) => cfg1) () c (fun w => winFacts₀1.arr_unscoped w) (V c),
    arrBufs1_eq, arrays1_eq]
  iintro ⟨⟨H4, H5⟩, Hrest⟩
  ihave H4' := (pointsTo_share (PosShare.mem_left_op_right fullShare)).1 $$ H4
  icases H4' with ⟨HL, HR⟩
  ihave HL' := (pointsTo_share (PosShare.mem_left_op_right fullShare.left)).1 $$ HL
  icases HL' with ⟨HLL, HLR⟩
  isplitr [Hrest]
  swap; · iexact Hrest
  isplitl [HLL]; · iexact HLL
  isplitl [HLR]; · iexact HLR
  isplitl [HR]; · iexact HR
  iexact H5

/-- At exit: the arrays at what the pipeline leaves, and the rest as entered, are the unscoped buffers at any contents V'
    that have the output array at what the pipeline leaves and agree with V elsewhere. -/
theorem join1 (V' : (c : Dev nD) → (b : Ref sig .tc) → Buf (Elt F) ((c : Thread nD τ).loc b)) (c : Dev nD)
    (hout : V' c main_v5 = (dat1 V c).arrAt 3 cfg1.N) (hrest : ∀ b : Ref sig .tc, b ≠ main_v5 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  rw [Pipeline.PerCore.unscopedBufs_split₀ (fun (_ : Dev nD) (_ : Unit) => cfg1) () c (fun w => winFacts₀1.arr_unscoped w) (V' c),
    arrBufs1_eq, arrays1_eq]
  rw [(dat1 V c).arrAt_in 0 rfl cfg1.N, (dat1 V c).arrAt_in 1 rfl cfg1.N, (dat1 V c).arrAt_in 2 rfl cfg1.N]
  rw [hout, hrest main_v4 (by decide)]
  have hR : (Pipeline.unscopedRest (Ix := Unit) (Name := ℕ) (U := UR sig nD τ) (Lvl := ℕ) spec1 c (V' c) : sProp 𝕄)
      = Pipeline.unscopedRest (Ix := Unit) (Name := ℕ) (U := UR sig nD τ) (Lvl := ℕ) spec1 c (V c) := by
    unfold Pipeline.unscopedRest
    exact bigSep_congr fun b hb => by
      rw [hrest b (fun e => (Finset.mem_sdiff.mp hb).2 (Finset.mem_image.mpr ⟨3, Finset.mem_univ _, e.symm⟩))]
  rw [hR]
  iintro ⟨⟨HLL, HLR, HR, H5⟩, Hrest⟩
  isplitr [Hrest]
  swap; · iexact Hrest
  isplitr [H5]
  swap; · iexact H5
  ihave HL := (pointsTo_share (PosShare.mem_left_op_right fullShare.left)).2 $$ [HLL HLR]
  · isplitl [HLL]; · iexact HLL
    iexact HLR
  ihave H4 := (pointsTo_share (PosShare.mem_left_op_right fullShare)).2 $$ [HL HR]
  · isplitl [HL]; · iexact HL
    iexact HR
  iexact H4

end Cert.KernelIdeal.Hand

end
-- ==== Proof.KernelIdealRegion2.lean ====
/-
  The output projection kernel (a [512, 768] block of rows against the whole [768, 768] weight, plus the [1, 768] bias
  row broadcast down the block, one [512, 768] block of the result per grid point) as the pipeline runs it: what each
  window's staging buffer holds before and after the body at a grid point, the body's run on whole staging buffers,
  and the pipeline's obligation at every point. Stated at any contents V of the core's buffers when the region is
  entered, and at any float instance.
-/
import proofs.«147996_j49383533969427_2_alg».proof.Proof.Gen.KernelIdeal.Launch
import proofs.«147996_j49383533969427_2_alg».proof.Proof.Gen.KernelIdeal.Skeleton
import proofs.«147996_j49383533969427_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' window: its current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's window: fetched once, its staging buffer holds the whole weight at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's window: fetched once, its staging buffer holds the row at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles. -/
abbrev r2_x : Rect S512x768 := Rect.unit (s := S512x768) ![0, 0] S512x768.size inb_S512x768_S512x768_0_0
abbrev r2_w : Rect S768x768 := Rect.unit (s := S768x768) ![0, 0] S768x768.size inb_S768x768_S768x768_0_0
abbrev r2_b : Rect S1x768 := Rect.unit (s := S1x768) ![0, 0] S1x768.size inb_S1x768_S1x768_0_0

/-- What the body leaves in the result's staging buffer: its one store, of the product plus the bias row. -/
def out2_3 (x0 : Vec F S512x768 .bf16) (x1 : Vec F S768x768 .bf16) (x2 : Vec F S1x768 .f32) : Vec F S512x768 .f32 :=
  View.canon [⟨r2_x, k2_pay1 (View.ld x0 r2_x) (View.ld x1 r2_w) (View.ld x2 r2_b)⟩]

/-- The one store covers the buffer. -/
theorem cover2_3 (p0 : Vec F S512x768 .f32) (y : S512x768.Idx) :
    ∃ pc ∈ ([⟨r2_x, p0⟩] : List (View.Piece (Elt F) S512x768 .f32)), y ∈ pc.1.set :=
  View.cover_of_tiled [⟨r2_x, p0⟩] S512x768.size (by rfl) y

set_option maxHeartbeats 1000000 in
/-- The body on whole staging buffers: the three inputs stay as they were, the output ends at out2_3 of them. -/
theorem sound_kernel2 (c : Dev nD) (E : Set ℕ) (i : grid2.Coords)
    (arg1 : Memref sig .tc .vmem S512x768 .bf16) (harg1 : arg1.IsWhole) (arg2 : Memref sig .tc .vmem S768x768 .bf16) (harg2 : arg2.IsWhole)
    (arg3 : Memref sig .tc .vmem S1x768 .f32) (harg3 : arg3.IsWhole) (arg4 : Memref sig .tc .vmem S512x768 .f32) (harg4 : arg4.IsWhole)
    (x0 : Vec F S512x768 .bf16) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_bias_kernel i arg1 harg1 arg2 harg2 arg3 harg3 arg4 harg4) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the output projection on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealRun.lean ====
/-
  The whole program run: a stretch of host operations, the first projection, a reshape, the attention kernel, a stretch
  of host operations, the output projection, a reshape. The contents of the core's buffers are followed from the
  launch through the seven boundaries between these items; each kernel region is entered from every unscoped buffer
  at the boundary's contents and left with its result array at what its write-backs leave, every other buffer as
  entered. Every weakly fair execution then terminates, nothing faulting, in a state whose unscoped buffers hold the
  last boundary's contents. Stated at any float instance.
-/
import proofs.«147996_j49383533969427_2_alg».proof.Proof.KernelIdealRegion0
import proofs.«147996_j49383533969427_2_alg».proof.Proof.KernelIdealAttnArrays
import proofs.«147996_j49383533969427_2_alg».proof.Proof.KernelIdealRegion2
import proofs.«147996_j49383533969427_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the first host stretch (the rows flattened, the projection weight transposed). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the first projection: its arrays at what the pipeline leaves. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshape of the joint projection to [4, 2048, 2304]. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention kernel: only its output array changes (its three input windows read one array). -/
def B4 (c : Dev nD) : Valuation τ sig (Elt F) :=
  Function.update (B3 m ρ c) (Proc.devRef .tc main_v5) ((dat1 (E3 m ρ) c).arrAt 3 cfg1.N)
theorem B4_out (c : Dev nD) : B4 m ρ c (Proc.devRef .tc main_v5) = (dat1 (E3 m ρ) c).arrAt 3 cfg1.N := by
  unfold B4; exact Function.update_self ..
theorem B4_of_ne (c : Dev nD) (b : Ref sig .tc) (hb : b ≠ main_v5) :
    B4 m ρ c (Proc.devRef .tc b) = B3 m ρ c (Proc.devRef .tc b) := by
  unfold B4; exact Function.update_of_ne (StableHlo.devRef_ne_of_ne hb) ..
abbrev E4 : (c : Dev nD) → (b : Ref sig .tc) → Buf (Elt F) ((c : Thread nD τ).loc b) := fun c b => B4 m ρ c b

/-- After the third host stretch (the attention output flattened, the output weight transposed, the bias as a row). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After the output projection: its arrays at what the pipeline leaves. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- After the last reshape, to [4, 2048, 768]. -/
abbrev B7 : Dev nD → Valuation τ sig (Elt F) := fun c => StableHlo.after hostOps3 (B6 m ρ c)

/-- Argument 0 reaches the last boundary as launched: no host stretch writes it and no region changes it. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (r := main_arg0) (by decide)
    _ = B5 m ρ c (Proc.devRef .tc main_arg0) := B6_of_ne m ρ c main_arg0 (by decide)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl

/-- Argument 1 reaches the last boundary as launched: no host stretch writes it and no region changes it. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (r := main_arg1) (by decide)
    _ = B5 m ρ c (Proc.devRef .tc main_arg1) := B6_of_ne m ρ c main_arg1 (by decide)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

/-- Argument 2 reaches the last boundary as launched: no host stretch writes it and no region changes it. -/
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (r := main_arg2) (by decide)
    _ = B5 m ρ c (Proc.devRef .tc main_arg2) := B6_of_ne m ρ c main_arg2 (by decide)
    _ = B4 m ρ c (Proc.devRef .tc main_arg2) := StableHlo.after_of_writes_sub hostOps2 _ hostOps2_writes (r := main_arg2) (by decide)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

/-- Argument 3 reaches the last boundary as launched: no host stretch writes it and no region changes it. -/
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (r := main_arg3) (by decide)
    _ = B5 m ρ c (Proc.devRef .tc main_arg3) := B6_of_ne m ρ c main_arg3 (by decide)
    _ = B4 m ρ c (Proc.devRef .tc main_arg3) := StableHlo.after_of_writes_sub hostOps2 _ hostOps2_writes (r := main_arg3) (by decide)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the same thread state; its three input windows share the joint projection, so its
    arrays are split out of the unscoped buffers and put back by hand (split1, join1). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := split1 (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E3 m ρ c))
        ⊢ (unscopedBufs (Ix := Unit) (Name := ℕ) (U := UR sig nD τ) (Lvl := ℕ) c (E4 m ρ c) : sProp 𝕄) :=
      join1 (E3 m ρ) (E4 m ρ) c (B4_out m ρ c) (fun b hb => B4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and in every
    final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

end Cert.KernelIdeal.Hand

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«147996_j49383533969427_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.KernelIdealValue0.lean ====
/-
  The first projection's result array. The kernel writes one [512, 2304] block of rows per grid point, sixteen points
  covering the 8192 rows; each block is the product of that block of rows with the whole weight. So the array ends
  holding the whole product: entry (i, o) is the sum over c of row i's entry c times the weight's entry (c, o).
-/
import proofs.«147996_j49383533969427_2_alg».proof.Proof.KernelIdealRegion0
import proofs.«147996_j49383533969427_2_alg».proof.Proof.LibRowReduceProducts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The whole product of the flattened rows with the transposed weight, entry by entry. -/
def prod0 (xs : S8192x768.Idx → Elt Ideal .f32) (w : S768x2304.Idx → Elt Ideal .bf16) : S8192x2304.Idx → Elt Ideal .bf16 :=
  fun i => ∑ k : Fin 768, xs (ix2 (⟨(i 0).val, (i 0).isLt⟩ : Fin 8192) k) * w (ix2 k (⟨(i 1).val, (i 1).isLt⟩ : Fin 2304))

/-- The body's stored value at entry (r, o): row r of the loaded block against column o of the loaded weight. -/
theorem pay0_apply (x0 : Vec Ideal S512x768 .f32) (x1 : Vec Ideal S768x2304 .bf16) (r : Fin 512) (o : Fin 2304) :
    k0_pay1 (F := Ideal) x0 x1 (ix2 r o) = ∑ k : Fin 768, x0 (ix2 r k) * x1 (ix2 k o) := by
  unfold k0_pay1
  rw [shapeCast_self, shapeCast_self]
  -- the two changes of float format are the identity on the extended reals
  show @matmul Ideal _ _ _ _ .bf16 .bf16 dot_S512x768_S768x2304_S512x2304_1_0_0_1_n_n none
      (truncf (F := Ideal) .bf16 (x0 : FVec Ideal S512x768 .f32) bitsLt_bf16_f32) x1
      (constant (F := Ideal) S512x2304 .f32 0x00000000#32) (ix2 r o) = _
  exact Cert.LibRowReduceProducts.matmulNN (φ₁ := .bf16) (φ₂ := .bf16) dot_S512x768_S768x2304_S512x2304_1_0_0_1_n_n rfl rfl rfl rfl rfl rfl none
    (truncf (F := Ideal) .bf16 (x0 : FVec Ideal S512x768 .f32) bitsLt_bf16_f32) (x1 : FVec Ideal S768x2304 .bf16) r o

theorem hz2 : (![0, 0] : Fin 2 → Nat) = fun _ => 0 := funext fun a => by fin_cases a <;> rfl

/-- The printed index maps over the grid: the rows' window and the result's window move together down the rows, the
    weight's window stays. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 15 :=
  (by decide +kernel : ∀ t : Fin grid0.N, _)

/-- Every block of sixteen is some point's. -/
theorem idx_onto0 : ∀ q0 : Fin 16, ∃ t : Fin cfg0.N, win0_2.index t = ![q0.val, 0] :=
  (by decide +kernel : ∀ q0 : Fin 16, ∃ t : Fin grid0.N, win0_2.index t = ![q0.val, 0])

variable (V : (c : Dev nD) → (b : Ref sig .tc) → Buf (Elt Ideal) ((c : Thread nD τ).loc b))

/-- What point t writes back is block t of the whole product. -/
theorem flushed0_eq (c : Dev nD) (t : Fin cfg0.N) :
    (dat0 (F := Ideal) V c).flushed 2 t = ((cfg0.win 2).blk t).view.read (Elt Ideal) (prod0 (V c main_v0) (V c main_v2)) := by
  show (cfg0.win 2).cut (grid0.coords t) ((dat0 V c).after 2 t) = _
  rw [after0_2]
  unfold out0_2
  rw [View.canon_unit_zero hz2]
  simp only [View.ld_unit_zero (S := S512x768) hz2, View.ld_unit_zero (S := S768x2304) hz2]
  obtain ⟨e0, e1, e2, e3, e4, e5⟩ := idx_facts0 t
  funext j
  refine ((congrArg (k0_pay1 (F := Ideal) (iblk0 V c 0 t) (iblk0 V c 1 t)) (eq_ix2 j)).trans
    (pay0_apply (iblk0 V c 0 t) (iblk0 V c 1 t) (j 0) (j 1))).trans ?_
  show _ = prod0 (V c main_v0) (V c main_v2) (((cfg0.win 2).blk t).view.emb j)
  unfold prod0
  refine Finset.sum_congr rfl fun k _ => ?_
  have h0 : iblk0 V c 0 t (ix2 (j 0) k)
      = V c main_v0 (ix2 (⟨((((cfg0.win 2).blk t).view.emb j) 0).val, ((((cfg0.win 2).blk t).view.emb j) 0).isLt⟩ : Fin 8192) k) := by
    show V c main_v0 (((cfg0.win 0).blk t).view.emb (ix2 (j 0) k)) = _
    refine congrArg (V c main_v0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 768 + 1 * k.val = k.val; omega
  have h1 : iblk0 V c 1 t (ix2 k (j 1))
      = V c main_v2 (ix2 k (⟨((((cfg0.win 2).blk t).view.emb j) 1).val, ((((cfg0.win 2).blk t).view.emb j) 1).isLt⟩ : Fin 2304)) := by
    show V c main_v2 (((cfg0.win 1).blk t).view.emb (ix2 k (j 1))) = _
    refine congrArg (V c main_v2) (funext fun a => Fin.ext ?_)
    match a with
    | ⟨0, _⟩ => show win0_1.index t (0 : Fin 2) * 768 + 1 * k.val = k.val; omega
    | ⟨1, _⟩ => show win0_1.index t (1 : Fin 2) * 2304 + 1 * (j 1).val = win0_2.index t (1 : Fin 2) * 2304 + 1 * (j 1).val; omega
  rw [h0, h1]

/-- An index of the array is in point t's block iff each coordinate is in the block's range on its axis. -/
theorem mem_blk0 (t : Fin cfg0.N) (i : S8192x2304.Idx) :
    i ∈ ((cfg0.win 2).blk t).view.set ↔ ∀ a : Fin 2, win0_2.index t a * S512x2304.size a ≤ (i a).val ∧ (i a).val < win0_2.index t a * S512x2304.size a + S512x2304.size a := by
  show i ∈ ((View.whole main_v3).slice (win0_2.rect t)).set ↔ _
  rw [View.set_slice_whole, Rect.mem_set_unit]
  exact Iff.rfl

/-- Every index is in some point's block: row i belongs to block i / 512. -/
theorem cover0 (i : S8192x2304.Idx) : ∃ t : Fin cfg0.N, (cfg0.win 2).flush t = true ∧ i ∈ ((cfg0.win 2).blk t).view.set := by
  have hi0 : (i 0).val < 8192 := (i 0).isLt
  have hi1 : (i 1).val < 2304 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2304 ≤ (i 1).val ∧ (i 1).val < win0_2.index t (1 : Fin 2) * 2304 + 2304; omega

/-- The result array after the region: the whole product of the arrays the region found. -/
theorem final0 (c : Dev nD) : (dat0 (F := Ideal) V c).arrAt 2 cfg0.N = prod0 (V c main_v0) (V c main_v2) :=
  (dat0 V c).arrAt_eq_of_cover 2 _ (fun t _ => flushed0_eq V c t) cover0

end Cert.KernelIdeal.Hand

end
-- ==== Proof.AttnSpec.lean ====
/-
  Multi-head self-attention as ONE function of its four argument arrays, entry by entry, on the extended reals.

  The input x has 4 batches of 2048 rows of 768 numbers. A joint projection by the [2304, 768] matrix wq gives, per row,
  2304 numbers: columns 0..767 are the queries, 768..1535 the keys, 1536..2303 the values, and inside each part the 768
  columns are 12 heads of 64 lanes (column h*64 + d is lane d of head h). For one batch and one head, row n attends to
  row m with the score (query n · key m) / 8; the scores of a row are shifted by their supremum, exponentiated, and
  divided by their sum; the row's output is that weighting of the value rows. The 12 heads' outputs are laid side by
  side again (768 columns) and multiplied by the [768, 768] matrix wp (entry (j, c) against column c), plus bias j.

  Every sum here is a finite sum on the extended reals, the supremum is the lattice supremum (minus infinity over
  nothing), the exponential and the quotient are the ideal instance's; the factor 1/8 is kept as the float word the
  programs carry.
-/
import Idealize.ShloMosaic.PureOps.Ideal

noncomputable section

open scoped BigOperators

namespace Cert.AttnSpec

open Idealize.ShloMosaic

/-- The factor 1/8 = 1/sqrt 64, as the 32-bit float word both programs multiply by. -/
abbrev scale : EReal := Ideal.ofBits .f32 0x3E000000#32

/-- Column of part j (0 the queries, 1 the keys, 2 the values), head h, lane d of the joint projection. -/
def col (j : Fin 3) (h : Fin 12) (d : Fin 64) : Fin 2304 :=
  ⟨j.val * 768 + h.val * 64 + d.val, by have := j.isLt; have := h.isLt; have := d.isLt; omega⟩

variable (x : Fin 4 → Fin 2048 → Fin 768 → EReal) (wq : Fin 2304 → Fin 768 → EReal)
  (wp : Fin 768 → Fin 768 → EReal) (bias : Fin 768 → EReal)

/-- Entry (b, n, o) of the joint projection: row n of batch b against row o of wq. -/
def proj (b : Fin 4) (n : Fin 2048) (o : Fin 2304) : EReal := ∑ c : Fin 768, x b n c * wq o c

/-- The score of row n against row m in batch b, head h: the 64-lane dot product of query n and key m, over 8. -/
def score (b : Fin 4) (h : Fin 12) (n m : Fin 2048) : EReal :=
  (∑ d : Fin 64, proj x wq b n (col 0 h d) * proj x wq b m (col 1 h d)) * scale

/-- The supremum of row n's scores. -/
def top (b : Fin 4) (h : Fin 12) (n : Fin 2048) : EReal := Finset.univ.sup fun m : Fin 2048 => score x wq b h n m

/-- The unnormalised weight of row m for row n: the exponential of the score less the row's supremum. -/
def weight (b : Fin 4) (h : Fin 12) (n m : Fin 2048) : EReal := Ideal.exp (score x wq b h n m - top x wq b h n)

/-- The sum of row n's weights. -/
def mass (b : Fin 4) (h : Fin 12) (n : Fin 2048) : EReal := ∑ m : Fin 2048, weight x wq b h n m

/-- Lane d of head h's output at row n: the value rows weighted by the normalised weights. -/
def mix (b : Fin 4) (h : Fin 12) (n : Fin 2048) (d : Fin 64) : EReal :=
  ∑ m : Fin 2048, Ideal.div (weight x wq b h n m) (mass x wq b h n) * proj x wq b m (col 2 h d)

/-- The heads side by side: column c of row n is lane c % 64 of head c / 64. -/
def merged (b : Fin 4) (n : Fin 2048) (c : Fin 768) : EReal :=
  mix x wq b ⟨c.val / 64, by have := c.isLt; omega⟩ n ⟨c.val % 64, Nat.mod_lt _ (by norm_num)⟩

/-- Entry (b, n, j) of the result: the merged row against row j of wp, plus bias j. -/
def out (b : Fin 4) (n : Fin 2048) (j : Fin 768) : EReal := (∑ c : Fin 768, merged x wq b n c * wp j c) + bias j

end Cert.AttnSpec

end
-- ==== Proof.AttnBlock.lean ====
/-
  One block of multi-head attention as a function of the three blocks the kernel loads: 256 query rows, and the 2048
  key rows and 2048 value rows of the same batch, each row 768 numbers = 12 heads of 64 lanes. Column c of output row r
  belongs to head c / 64, lane c % 64: the scores of row r against every key row m are the 64-lane dot products in that
  head's columns, times 1/8; they are shifted by their supremum, exponentiated, divided by their sum, and weight the
  value rows' column c. Everything on the extended reals, with the ideal instance's exponential and quotient.
-/
import Idealize.ShloMosaic.PureOps.Ideal

noncomputable section

open scoped BigOperators

namespace Cert.AttnBlock

open Idealize.ShloMosaic

/-- Column of head h, lane d, inside a 768-column part. -/
def hcol (h : Fin 12) (d : Fin 64) : Fin 768 := ⟨h.val * 64 + d.val, by have := h.isLt; have := d.isLt; omega⟩

/-- The head a column belongs to. -/
def headOf (c : Fin 768) : Fin 12 := ⟨c.val / 64, by have := c.isLt; omega⟩

variable (q : Fin 256 → Fin 768 → EReal) (k v : Fin 2048 → Fin 768 → EReal)

/-- The score of query row r against key row m in head h. -/
def score (h : Fin 12) (r : Fin 256) (m : Fin 2048) : EReal :=
  (∑ d : Fin 64, q r (hcol h d) * k m (hcol h d)) * Ideal.ofBits .f32 0x3E000000#32

/-- The supremum of row r's scores in head h. -/
def top (h : Fin 12) (r : Fin 256) : EReal := Finset.univ.sup fun m : Fin 2048 => score q k h r m

/-- The unnormalised weight of key row m for query row r. -/
def weight (h : Fin 12) (r : Fin 256) (m : Fin 2048) : EReal := Ideal.exp (score q k h r m - top q k h r)

/-- The sum of row r's weights. -/
def mass (h : Fin 12) (r : Fin 256) : EReal := ∑ m : Fin 2048, weight q k h r m

/-- Entry (r, c) of the block's output. -/
def mix (r : Fin 256) (c : Fin 768) : EReal :=
  ∑ m : Fin 2048, Ideal.div (weight q k (headOf c) r m) (mass q k (headOf c) r) * v m c

end Cert.AttnBlock

end
-- ==== Proof.AttnBridge.lean ====
/-
  The attention of one query row against a batch's key and value rows, written over the 768-column parts of the joint
  projection, is the specification's merged row. With P the joint projection of one batch (2048 rows of 2304 numbers),
  the query part is columns 0..767, the key part columns 768..1535, the value part columns 1536..2303. Column c of a
  part is lane c % 64 of head c / 64, so the part-relative column of head h, lane d is h*64 + d, and the absolute
  columns are the specification's col 0 h d, col 1 h d, col 2 h d. The scores, their supremum, the weights, their sum
  and the weighted value column are then term by term the specification's.
-/
import proofs.«147996_j49383533969427_2_alg».proof.Proof.AttnSpec
import proofs.«147996_j49383533969427_2_alg».proof.Proof.AttnBlock

noncomputable section

open scoped BigOperators

namespace Cert.AttnBridge

open Idealize.ShloMosaic

/-- Column c of the query part, of the key part and of the value part of the joint projection. -/
def qcol (c : Fin 768) : Fin 2304 := ⟨c.val, by have := c.isLt; omega⟩
def kcol (c : Fin 768) : Fin 2304 := ⟨768 + c.val, by have := c.isLt; omega⟩
def vcol (c : Fin 768) : Fin 2304 := ⟨1536 + c.val, by have := c.isLt; omega⟩

theorem col0_eq (h : Fin 12) (d : Fin 64) : Cert.AttnSpec.col 0 h d = qcol (Cert.AttnBlock.hcol h d) :=
  Fin.ext (by show (0 : Fin 3).val * 768 + h.val * 64 + d.val = h.val * 64 + d.val; simp)
theorem col1_eq (h : Fin 12) (d : Fin 64) : Cert.AttnSpec.col 1 h d = kcol (Cert.AttnBlock.hcol h d) :=
  Fin.ext (by show (1 : Fin 3).val * 768 + h.val * 64 + d.val = 768 + (h.val * 64 + d.val); simp; omega)
theorem col2_eq (c : Fin 768) :
    Cert.AttnSpec.col 2 (Cert.AttnBlock.headOf c) ⟨c.val % 64, Nat.mod_lt _ (by norm_num)⟩ = vcol c :=
  Fin.ext (by
    show (2 : Fin 3).val * 768 + (c.val / 64) * 64 + c.val % 64 = 1536 + c.val
    have := Nat.div_add_mod c.val 64
    have h2 : (2 : Fin 3).val = 2 := rfl
    rw [h2]; omega)

/-- A block's output entry depends on the query block only through its own row, and on all three blocks only through
    their entries. -/
theorem mix_congr {q q' : Fin 256 → Fin 768 → EReal} {k k' v v' : Fin 2048 → Fin 768 → EReal} (r r' : Fin 256) (c c' : Fin 768)
    (hq : ∀ z, q r z = q' r' z) (hk : ∀ m z, k m z = k' m z) (hv : ∀ m z, v m z = v' m z) (hc : c = c') :
    Cert.AttnBlock.mix q k v r c = Cert.AttnBlock.mix q' k' v' r' c' := by
  obtain rfl := hc
  obtain rfl : k = k' := funext fun m => funext (hk m)
  obtain rfl : v = v' := funext fun m => funext (hv m)
  have e1 : Cert.AttnBlock.mix q k v r c = Cert.AttnBlock.mix (fun _ => q r) k v r' c := rfl
  have e2 : Cert.AttnBlock.mix q' k v r' c = Cert.AttnBlock.mix (fun _ => q' r') k v r' c := rfl
  rw [e1, e2, show q r = q' r' from funext hq]

variable (x : Fin 4 → Fin 2048 → Fin 768 → EReal) (wq : Fin 2304 → Fin 768 → EReal)

/-- One query row against the batch's keys and values, over the three parts of the joint projection, is the
    specification's merged entry. -/
theorem mix_eq_merged (b : Fin 4) (n : Fin 2048) (c : Fin 768) (r : Fin 256) :
    Cert.AttnBlock.mix (fun _ c' => Cert.AttnSpec.proj x wq b n (qcol c'))
        (fun m c' => Cert.AttnSpec.proj x wq b m (kcol c')) (fun m c' => Cert.AttnSpec.proj x wq b m (vcol c')) r c
      = Cert.AttnSpec.merged x wq b n c := by
  have hs : ∀ (h : Fin 12) (m : Fin 2048),
      Cert.AttnBlock.score (fun _ c' => Cert.AttnSpec.proj x wq b n (qcol c')) (fun m c' => Cert.AttnSpec.proj x wq b m (kcol c')) h r m
        = Cert.AttnSpec.score x wq b h n m := by
    intro h m
    unfold Cert.AttnBlock.score Cert.AttnSpec.score
    refine congrArg (· * _) (Finset.sum_congr rfl fun d _ => ?_)
    rw [col0_eq, col1_eq]
  have ht : ∀ h : Fin 12,
      Cert.AttnBlock.top (fun _ c' => Cert.AttnSpec.proj x wq b n (qcol c')) (fun m c' => Cert.AttnSpec.proj x wq b m (kcol c')) h r
        = Cert.AttnSpec.top x wq b h n := by
    intro h
    unfold Cert.AttnBlock.top Cert.AttnSpec.top
    exact congrArg Finset.univ.sup (funext fun m => hs h m)
  have hw : ∀ (h : Fin 12) (m : Fin 2048),
      Cert.AttnBlock.weight (fun _ c' => Cert.AttnSpec.proj x wq b n (qcol c')) (fun m c' => Cert.AttnSpec.proj x wq b m (kcol c')) h r m
        = Cert.AttnSpec.weight x wq b h n m := by
    intro h m
    unfold Cert.AttnBlock.weight Cert.AttnSpec.weight
    rw [hs, ht]
  have hm : ∀ h : Fin 12,
      Cert.AttnBlock.mass (fun _ c' => Cert.AttnSpec.proj x wq b n (qcol c')) (fun m c' => Cert.AttnSpec.proj x wq b m (kcol c')) h r
        = Cert.AttnSpec.mass x wq b h n := by
    intro h
    unfold Cert.AttnBlock.mass Cert.AttnSpec.mass
    exact Finset.sum_congr rfl fun m _ => hw h m
  unfold Cert.AttnBlock.mix Cert.AttnSpec.merged Cert.AttnSpec.mix
  refine Finset.sum_congr rfl fun m _ => ?_
  rw [hw, hm]
  show _ * Cert.AttnSpec.proj x wq b m (vcol c) = _ * Cert.AttnSpec.proj x wq b m (Cert.AttnSpec.col 2 (Cert.AttnBlock.headOf c) ⟨c.val % 64, Nat.mod_lt _ (by norm_num)⟩)
  rw [col2_eq]
  rfl

end Cert.AttnBridge

end
-- ==== Proof.KernelIdealValue1.lean ====
/-
  The attention kernel's result array. The kernel writes one [1, 256, 768] block per grid point, thirty-two points
  covering the 4 batches of 2048 rows; the block of batch b, rows 256*i .. 256*i + 255 is computed from the query
  columns of those rows and from the key and value columns of all 2048 rows of batch b — columns 0..767, 768..1535 and
  1536..2303 of the joint projection. Given that the stored value of a block is the attention of its query rows against
  the key and value rows it loads, the array ends holding, at (b, n, c), the attention of row n of batch b against
  batch b's keys and values, at column c.
-/
import proofs.«147996_j49383533969427_2_alg».proof.Proof.KernelIdealRegion1
import proofs.«147996_j49383533969427_2_alg».proof.Proof.AttnBridge
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The attention of every row against its batch's keys and values, over the joint projection A: entry (b, n, c). -/
def attnArr (A : S4x2048x2304.Idx → Elt Ideal .bf16) : S4x2048x768.Idx → Elt Ideal .bf16 :=
  fun i => Cert.AttnBlock.mix
    (fun _ z => A (ix3 (⟨(i 0).val, (i 0).isLt⟩ : Fin 4) (⟨(i 1).val, (i 1).isLt⟩ : Fin 2048) (Cert.AttnBridge.qcol z)))
    (fun m z => A (ix3 (⟨(i 0).val, (i 0).isLt⟩ : Fin 4) m (Cert.AttnBridge.kcol z)))
    (fun m z => A (ix3 (⟨(i 0).val, (i 0).isLt⟩ : Fin 4) m (Cert.AttnBridge.vcol z)))
    (0 : Fin 256) (⟨(i 2).val, (i 2).isLt⟩ : Fin 768)

/-- The statement that the body's stored value is the block attention of the three blocks it loads. -/
def StoredIsMix : Prop :=
  ∀ (v0 : Vec Ideal S1x256x768 .bf16) (v2 v4 : Vec Ideal S1x2048x768 .bf16) (r : Fin 256) (z : Fin 768),
    attnVal (F := Ideal) v0 v2 v4 (ix3 (0 : Fin 1) r z)
      = Cert.AttnBlock.mix (fun r z => v0 (ix3 (0 : Fin 1) r z)) (fun m z => v2 (ix3 (0 : Fin 1) m z)) (fun m z => v4 (ix3 (0 : Fin 1) m z)) r z

theorem hz3 : (![0, 0, 0] : Fin 3 → Nat) = fun _ => 0 := funext fun a => by fin_cases a <;> rfl

/-- The printed index maps over the grid: the query window and the result's window move together over batches and
    row blocks; the key and value windows follow the batch and sit at column blocks 1 and 2. -/
theorem idx_facts1 : ∀ t : Fin cfg1.N, win1_0.index t (0 : Fin 3) = win1_3.index t (0 : Fin 3)
    ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 1
    ∧ win1_2.index t (0 : Fin 3) = win1_3.index t (0 : Fin 3) ∧ win1_2.index t (1 : Fin 3) = 0 ∧ win1_2.index t (2 : Fin 3) = 2
    ∧ win1_3.index t (2 : Fin 3) = 0 ∧ win1_3.index t (0 : Fin 3) ≤ 3 ∧ win1_3.index t (1 : Fin 3) ≤ 7 :=
  (by decide +kernel : ∀ t : Fin grid1.N, _)

/-- Every pair of a batch and a row block is some point's. -/
theorem idx_onto1 : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

variable (V : (c : Dev nD) → (b : Ref sig .tc) → Buf (Elt Ideal) ((c : Thread nD τ).loc b))

/-- What point t writes back is block t of the whole attention array. -/
theorem flushed1_eq (hval : StoredIsMix) (c : Dev nD) (t : Fin cfg1.N) :
    (dat1 (F := Ideal) V c).flushed 3 t = ((cfg1.win 3).blk t).view.read (Elt Ideal) (attnArr (V c main_v4)) := by
  show (cfg1.win 3).cut (grid1.coords t) ((dat1 V c).after 3 t) = _
  rw [after1_3]
  unfold out1_3
  rw [View.canon_unit_zero hz3]
  simp only [View.ld_unit_zero (S := S1x256x768) hz3, View.ld_unit_zero (S := S1x2048x768) hz3]
  obtain ⟨e00, e01, e02, e10, e11, e12, e20, e21, e22, e32, e30, e31⟩ := idx_facts1 t
  funext j
  have hj0 : (j 0).val = 0 := Nat.lt_one_iff.mp (j 0).isLt
  have hj : j = ix3 (0 : Fin 1) (j 1) (j 2) :=
    (eq_ix3 j).trans (congrArg (fun u : Fin 1 => ix3 u (j 1) (j 2)) (Subsingleton.elim _ _))
  refine ((congrArg (attnVal (F := Ideal) (iblk1 V c 0 t) (iblk1 V c 1 t) (iblk1 V c 2 t)) hj).trans
    (hval (iblk1 V c 0 t) (iblk1 V c 1 t) (iblk1 V c 2 t) (j 1) (j 2))).trans ?_
  show _ = attnArr (V c main_v4) (((cfg1.win 3).blk t).view.emb j)
  unfold attnArr
  refine Cert.AttnBridge.mix_congr (j 1) (0 : Fin 256) (j 2) _ (fun z => ?_) (fun m z => ?_) (fun m z => ?_) ?_
  · show V c main_v4 (((cfg1.win 0).blk t).view.emb (ix3 (0 : Fin 1) (j 1) z)) = V c main_v4 _
    refine congrArg (V c main_v4) (funext fun a => Fin.ext ?_)
    match a with
    | ⟨0, _⟩ => show win1_0.index t (0 : Fin 3) * 1 + 1 * 0 = win1_3.index t (0 : Fin 3) * 1 + 1 * (j 0).val; omega
    | ⟨1, _⟩ => show win1_0.index t (1 : Fin 3) * 256 + 1 * (j 1).val = win1_3.index t (1 : Fin 3) * 256 + 1 * (j 1).val; omega
    | ⟨2, _⟩ => show win1_0.index t (2 : Fin 3) * 768 + 1 * z.val = z.val; omega
  · show V c main_v4 (((cfg1.win 1).blk t).view.emb (ix3 (0 : Fin 1) m z)) = V c main_v4 _
    refine congrArg (V c main_v4) (funext fun a => Fin.ext ?_)
    match a with
    | ⟨0, _⟩ => show win1_1.index t (0 : Fin 3) * 1 + 1 * 0 = win1_3.index t (0 : Fin 3) * 1 + 1 * (j 0).val; omega
    | ⟨1, _⟩ => show win1_1.index t (1 : Fin 3) * 2048 + 1 * m.val = m.val; omega
    | ⟨2, _⟩ => show win1_1.index t (2 : Fin 3) * 768 + 1 * z.val = 768 + z.val; omega
  · show V c main_v4 (((cfg1.win 2).blk t).view.emb (ix3 (0 : Fin 1) m z)) = V c main_v4 _
    refine congrArg (V c main_v4) (funext fun a => Fin.ext ?_)
    match a with
    | ⟨0, _⟩ => show win1_2.index t (0 : Fin 3) * 1 + 1 * 0 = win1_3.index t (0 : Fin 3) * 1 + 1 * (j 0).val; omega
    | ⟨1, _⟩ => show win1_2.index t (1 : Fin 3) * 2048 + 1 * m.val = m.val; omega
    | ⟨2, _⟩ => show win1_2.index t (2 : Fin 3) * 768 + 1 * z.val = 1536 + z.val; omega
  · refine Fin.ext ?_
    show (j 2).val = win1_3.index t (2 : Fin 3) * 768 + 1 * (j 2).val
    omega

/-- An index of the array is in point t's block iff each coordinate is in the block's range on its axis. -/
theorem mem_blk1 (t : Fin cfg1.N) (i : S4x2048x768.Idx) :
    i ∈ ((cfg1.win 3).blk t).view.set ↔ ∀ a : Fin 3, win1_3.index t a * S1x256x768.size a ≤ (i a).val ∧ (i a).val < win1_3.index t a * S1x256x768.size a + S1x256x768.size a := by
  show i ∈ ((View.whole main_v5).slice (win1_3.rect t)).set ↔ _
  rw [View.set_slice_whole, Rect.mem_set_unit]
  exact Iff.rfl

/-- Every index is in some point's block: (b, n, c) belongs to the block of batch b and row block n / 256. -/
theorem cover1 (i : S4x2048x768.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 768 := (i 2).isLt
  obtain ⟨t, ht⟩ := idx_onto1 ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 768 ≤ (i 2).val ∧ (i 2).val < win1_3.index t (2 : Fin 3) * 768 + 768; omega

/-- The result array after the region: the attention of every row, over the joint projection the region found. -/
theorem final1 (hval : StoredIsMix) (c : Dev nD) : (dat1 (F := Ideal) V c).arrAt 3 cfg1.N = attnArr (V c main_v4) :=
  (dat1 V c).arrAt_eq_of_cover 3 _ (fun t _ => flushed1_eq V hval c t) cover1

end Cert.KernelIdeal.Hand

end
-- ==== Proof.KernelIdealValue2.lean ====
/-
  The output projection's result array. The kernel writes one [512, 768] block of rows per grid point, sixteen points
  covering the 8192 rows; each block is the product of that block of rows with the whole weight, plus the bias row
  added to every row. So the array ends holding: entry (i, o) is the sum over c of row i's entry c times the weight's
  entry (c, o), plus the bias row's entry o.
-/
import proofs.«147996_j49383533969427_2_alg».proof.Proof.KernelIdealRegion2
import proofs.«147996_j49383533969427_2_alg».proof.Proof.LibRowReduceProducts
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The whole product of the flattened rows with the transposed weight, plus the bias row, entry by entry. -/
def prod2 (xs : S8192x768.Idx → Elt Ideal .bf16) (w : S768x768.Idx → Elt Ideal .bf16) (b : S1x768.Idx → Elt Ideal .f32) :
    S8192x768.Idx → Elt Ideal .f32 :=
  fun i => (∑ k : Fin 768, xs (ix2 (⟨(i 0).val, (i 0).isLt⟩ : Fin 8192) k) * w (ix2 k (⟨(i 1).val, (i 1).isLt⟩ : Fin 768)))
    + b (ix2 (0 : Fin 1) (⟨(i 1).val, (i 1).isLt⟩ : Fin 768))

/-- The body's stored value at entry (r, o): row r of the loaded block against column o of the loaded weight, plus the
    loaded bias row's entry o. -/
theorem pay2_apply (x0 : Vec Ideal S512x768 .bf16) (x1 : Vec Ideal S768x768 .bf16) (x2 : Vec Ideal S1x768 .f32) (r : Fin 512) (o : Fin 768) :
    k2_pay1 (F := Ideal) x0 x1 x2 (ix2 r o) = (∑ k : Fin 768, x0 (ix2 r k) * x1 (ix2 k o)) + x2 (ix2 (0 : Fin 1) o) := by
  unfold k2_pay1
  rw [shapeCast_self, shapeCast_self, shapeCast_self]
  refine congrArg₂ (· + ·) (Cert.LibRowReduceProducts.matmulNN dot_S512x768_S768x768_S512x768_1_0_0_1_n_n rfl rfl rfl rfl rfl rfl none _ _ r o) ?_
  exact broadcastTo_apply _ broadcasts_S1x768_S512x768 (ix2 r o) (ix2 (0 : Fin 1) o) (fun a => by
    match a with
    | ⟨0, _⟩ => rfl
    | ⟨1, _⟩ => rfl)

theorem hz2' : (![0, 0] : Fin 2 → Nat) = fun _ => 0 := funext fun a => by fin_cases a <;> rfl

/-- The printed index maps over the grid: the rows' window and the result's window move together down the rows, the
    weight's and the bias row's windows stay. -/
theorem idx_facts2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 15 :=
  (by decide +kernel : ∀ t : Fin grid2.N, _)

/-- Every block of sixteen is some point's. -/
theorem idx_onto2 : ∀ q0 : Fin 16, ∃ t : Fin cfg2.N, win2_3.index t = ![q0.val, 0] :=
  (by decide +kernel : ∀ q0 : Fin 16, ∃ t : Fin grid2.N, win2_3.index t = ![q0.val, 0])

variable (V : (c : Dev nD) → (b : Ref sig .tc) → Buf (Elt Ideal) ((c : Thread nD τ).loc b))

/-- What point t writes back is block t of the whole result. -/
theorem flushed2_eq (c : Dev nD) (t : Fin cfg2.N) :
    (dat2 (F := Ideal) V c).flushed 3 t
      = ((cfg2.win 3).blk t).view.read (Elt Ideal) (prod2 (V c main_v6) (V c main_v8) (V c main_v9)) := by
  show (cfg2.win 3).cut (grid2.coords t) ((dat2 V c).after 3 t) = _
  rw [after2_3]
  unfold out2_3
  rw [View.canon_unit_zero hz2']
  simp only [View.ld_unit_zero (S := S512x768) hz2', View.ld_unit_zero (S := S768x768) hz2', View.ld_unit_zero (S := S1x768) hz2']
  obtain ⟨e0, e1, e2, e3, e4, e5, e6, e7⟩ := idx_facts2 t
  funext j
  refine ((congrArg (k2_pay1 (F := Ideal) (iblk2 V c 0 t) (iblk2 V c 1 t) (iblk2 V c 2 t)) (eq_ix2 j)).trans
    (pay2_apply (iblk2 V c 0 t) (iblk2 V c 1 t) (iblk2 V c 2 t) (j 0) (j 1))).trans ?_
  show _ = prod2 (V c main_v6) (V c main_v8) (V c main_v9) (((cfg2.win 3).blk t).view.emb j)
  unfold prod2
  have hb : iblk2 V c 2 t (ix2 (0 : Fin 1) (j 1))
      = V c main_v9 (ix2 (0 : Fin 1) (⟨((((cfg2.win 3).blk t).view.emb j) 1).val, ((((cfg2.win 3).blk t).view.emb j) 1).isLt⟩ : Fin 768)) := by
    show V c main_v9 (((cfg2.win 2).blk t).view.emb (ix2 (0 : Fin 1) (j 1))) = _
    refine congrArg (V c main_v9) (funext fun a => Fin.ext ?_)
    match a with
    | ⟨0, _⟩ => show win2_2.index t (0 : Fin 2) * 1 + 1 * 0 = 0; omega
    | ⟨1, _⟩ => show win2_2.index t (1 : Fin 2) * 768 + 1 * (j 1).val = win2_3.index t (1 : Fin 2) * 768 + 1 * (j 1).val; omega
  rw [hb]
  refine congrArg (· + _) (Finset.sum_congr rfl fun k _ => ?_)
  have h0 : iblk2 V c 0 t (ix2 (j 0) k)
      = V c main_v6 (ix2 (⟨((((cfg2.win 3).blk t).view.emb j) 0).val, ((((cfg2.win 3).blk t).view.emb j) 0).isLt⟩ : Fin 8192) k) := by
    show V c main_v6 (((cfg2.win 0).blk t).view.emb (ix2 (j 0) k)) = _
    refine congrArg (V c main_v6) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 768 + 1 * k.val = k.val; omega
  have h1 : iblk2 V c 1 t (ix2 k (j 1))
      = V c main_v8 (ix2 k (⟨((((cfg2.win 3).blk t).view.emb j) 1).val, ((((cfg2.win 3).blk t).view.emb j) 1).isLt⟩ : Fin 768)) := by
    show V c main_v8 (((cfg2.win 1).blk t).view.emb (ix2 k (j 1))) = _
    refine congrArg (V c main_v8) (funext fun a => Fin.ext ?_)
    match a with
    | ⟨0, _⟩ => show win2_1.index t (0 : Fin 2) * 768 + 1 * k.val = k.val; omega
    | ⟨1, _⟩ => show win2_1.index t (1 : Fin 2) * 768 + 1 * (j 1).val = win2_3.index t (1 : Fin 2) * 768 + 1 * (j 1).val; omega
  rw [h0, h1]

/-- An index of the array is in point t's block iff each coordinate is in the block's range on its axis. -/
theorem mem_blk2 (t : Fin cfg2.N) (i : S8192x768.Idx) :
    i ∈ ((cfg2.win 3).blk t).view.set ↔ ∀ a : Fin 2, win2_3.index t a * S512x768.size a ≤ (i a).val ∧ (i a).val < win2_3.index t a * S512x768.size a + S512x768.size a := by
  show i ∈ ((View.whole main_v10).slice (win2_3.rect t)).set ↔ _
  rw [View.set_slice_whole, Rect.mem_set_unit]
  exact Iff.rfl

/-- Every index is in some point's block: row i belongs to block i / 512. -/
theorem cover2 (i : S8192x768.Idx) : ∃ t : Fin cfg2.N, (cfg2.win 3).flush t = true ∧ i ∈ ((cfg2.win 3).blk t).view.set := by
  have hi0 : (i 0).val < 8192 := (i 0).isLt
  have hi1 : (i 1).val < 768 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 768 ≤ (i 1).val ∧ (i 1).val < win2_3.index t (1 : Fin 2) * 768 + 768; omega

/-- The result array after the region: the whole product plus the bias row, of the arrays the region found. -/
theorem final2 (c : Dev nD) : (dat2 (F := Ideal) V c).arrAt 3 cfg2.N = prod2 (V c main_v6) (V c main_v8) (V c main_v9) :=
  (dat2 V c).arrAt_eq_of_cover 3 _ (fun t _ => flushed2_eq V c t) cover2

end Cert.KernelIdeal.Hand

end
-- ==== Proof.KernelIdealResult.lean ====
/-
  The idealized kernel program's result array, entry by entry, is the multi-head attention function of the four
  argument arrays. The buffers are followed through the program's seven boundaries: the rows of x flattened to
  [8192, 768] and the projection matrix transposed; the first kernel's product, which at row b*2048 + n and column o is
  the joint projection's entry (b, n, o); its reshape to [4, 2048, 2304]; the attention kernel's array, which at
  (b, n, c) is the specification's merged row; its flattening, the output matrix transposed, the bias as a row; the
  output kernel's product plus bias; and the last reshape to [4, 2048, 768]. A reshape between [4, 2048, d] and
  [8192, d] pairs (b, n, j) with (b*2048 + n, j): both have row-major position (b*2048 + n)*d + j.
-/
import proofs.«147996_j49383533969427_2_alg».proof.Proof.KernelIdealRun
import proofs.«147996_j49383533969427_2_alg».proof.Proof.KernelIdealValue0
import proofs.«147996_j49383533969427_2_alg».proof.Proof.KernelIdealValue1
import proofs.«147996_j49383533969427_2_alg».proof.Proof.KernelIdealValue2
import proofs.«147996_j49383533969427_2_alg».proof.Proof.AttnBridge
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open scoped BigOperators

/-! ## Reshapes between [4, 2048, d] and [8192, d] -/

/-- Row n of batch b among the 8192 flattened rows. -/
def flatRow (b : Fin 4) (n : Fin 2048) : Fin 8192 := ⟨b.val * 2048 + n.val, by have := b.isLt; have := n.isLt; omega⟩

theorem flatten_apply {α : Type} {d : ℕ} (x : (⟨3, ![4, 2048, d]⟩ : Shape).Idx → α)
    (h : (⟨3, ![4, 2048, d]⟩ : Shape).ShapeCasts ⟨2, ![8192, d]⟩) (b : Fin 4) (n : Fin 2048) (j : Fin d) :
    shapeCast ⟨2, ![8192, d]⟩ x h (ix2 (flatRow b n) j) = x (ix3 b n j) :=
  shapeCast_apply x h _ _ (by
    rw [Shape.rowMajor_val_three, Shape.rowMajor_val_two]
    rfl)

theorem unflatten_apply {α : Type} {d : ℕ} (x : (⟨2, ![8192, d]⟩ : Shape).Idx → α)
    (h : (⟨2, ![8192, d]⟩ : Shape).ShapeCasts ⟨3, ![4, 2048, d]⟩) (b : Fin 4) (n : Fin 2048) (j : Fin d) :
    shapeCast ⟨3, ![4, 2048, d]⟩ x h (ix3 b n j) = x (ix2 (flatRow b n) j) :=
  shapeCast_apply x h _ _ (by
    rw [Shape.rowMajor_val_three, Shape.rowMajor_val_two]
    rfl)

variable (m : (ℓ : Loc nD τ sig) → Buf (Elt Ideal) ℓ) (ρ : Dev nD → PrngReg)

/-! ## The buffers the host stretches write, in terms of the boundary before -/

theorem B1_v0 (c : Dev nD) : B1 m ρ c (Proc.devRef .tc main_v0)
    = shapeCast S8192x768 (m ((c : Thread nD τ).loc main_arg0)) shapeCasts_S4x2048x768_S8192x768 := by
  show StableHlo.after hostOps0 (B0 m ρ c) (Proc.devRef .tc main_v0) = _
  after_results
  rfl

theorem B1_v2 (c : Dev nD) : B1 m ρ c (Proc.devRef .tc main_v2)
    = transpose S768x2304 [1, 0] (m ((c : Thread nD τ).loc main_arg1)) transposes_S2304x768_S768x2304_1_0 := by
  show StableHlo.after hostOps0 (B0 m ρ c) (Proc.devRef .tc main_v2) = _
  after_results
  rfl

theorem B3_v4 (c : Dev nD) : B3 m ρ c (Proc.devRef .tc main_v4)
    = shapeCast S4x2048x2304 (B2 m ρ c (Proc.devRef .tc main_v3)) shapeCasts_S8192x2304_S4x2048x2304 := by
  show StableHlo.after hostOps1 (B2 m ρ c) (Proc.devRef .tc main_v4) = _
  after_results
  rfl

theorem B5_v6 (c : Dev nD) : B5 m ρ c (Proc.devRef .tc main_v6)
    = shapeCast S8192x768 (B4 m ρ c (Proc.devRef .tc main_v5)) shapeCasts_S4x2048x768_S8192x768 := by
  show StableHlo.after hostOps2 (B4 m ρ c) (Proc.devRef .tc main_v6) = _
  after_results
  rfl

theorem B5_v8 (c : Dev nD) : B5 m ρ c (Proc.devRef .tc main_v8)
    = transpose S768x768 [1, 0] (B4 m ρ c (Proc.devRef .tc main_arg2)) transposes_S768x768_S768x768_1_0 := by
  show StableHlo.after hostOps2 (B4 m ρ c) (Proc.devRef .tc main_v8) = _
  after_results
  rfl

theorem B5_v9 (c : Dev nD) : B5 m ρ c (Proc.devRef .tc main_v9)
    = shapeCast S1x768 (B4 m ρ c (Proc.devRef .tc main_arg3)) shapeCasts_S768_S1x768 := by
  show StableHlo.after hostOps2 (B4 m ρ c) (Proc.devRef .tc main_v9) = _
  after_results
  rfl

theorem B7_v11 (c : Dev nD) : B7 m ρ c (Proc.devRef .tc main_v11)
    = shapeCast S4x2048x768 (B6 m ρ c (Proc.devRef .tc main_v10)) shapeCasts_S8192x768_S4x2048x768 := by
  show StableHlo.after hostOps3 (B6 m ρ c) (Proc.devRef .tc main_v11) = _
  after_results
  rfl

/-- The output matrix and the bias reach the third host stretch as launched. -/
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-! ## The arrays the kernels write -/

theorem B2_v3 (c : Dev nD) : B2 m ρ c (Proc.devRef .tc main_v3)
    = prod0 (B1 m ρ c (Proc.devRef .tc main_v0)) (B1 m ρ c (Proc.devRef .tc main_v2)) :=
  (B2_arr m ρ c 2).trans (final0 (E1 m ρ) c)

theorem B4_v5 (hval : StoredIsMix) (c : Dev nD) : B4 m ρ c (Proc.devRef .tc main_v5) = attnArr (B3 m ρ c (Proc.devRef .tc main_v4)) :=
  (B4_out m ρ c).trans (final1 (E3 m ρ) hval c)

theorem B6_v10 (c : Dev nD) : B6 m ρ c (Proc.devRef .tc main_v10)
    = prod2 (B5 m ρ c (Proc.devRef .tc main_v6)) (B5 m ρ c (Proc.devRef .tc main_v8)) (B5 m ρ c (Proc.devRef .tc main_v9)) :=
  (B6_arr m ρ c 3).trans (final2 (E5 m ρ) c)

/-! ## Entry by entry -/

/-- The first kernel's product at row r, column o. -/
theorem prod0_apply (xs : S8192x768.Idx → Elt Ideal .f32) (w : S768x2304.Idx → Elt Ideal .bf16) (r : Fin 8192) (o : Fin 2304) :
    prod0 xs w (ix2 r o) = ∑ k : Fin 768, xs (ix2 r k) * w (ix2 k o) := rfl

/-- The output kernel's product plus bias at row r, column o. -/
theorem prod2_apply (xs : S8192x768.Idx → Elt Ideal .bf16) (w : S768x768.Idx → Elt Ideal .bf16) (bb : S1x768.Idx → Elt Ideal .f32)
    (r : Fin 8192) (o : Fin 768) :
    prod2 xs w bb (ix2 r o) = (∑ k : Fin 768, xs (ix2 r k) * w (ix2 k o)) + bb (ix2 (0 : Fin 1) o) := rfl

/-- The four argument arrays by coordinates. -/
abbrev argX (c : Dev nD) : Fin 4 → Fin 2048 → Fin 768 → EReal := fun b n k => m ((c : Thread nD τ).loc main_arg0) (ix3 b n k)
abbrev argWq (c : Dev nD) : Fin 2304 → Fin 768 → EReal := fun o k => m ((c : Thread nD τ).loc main_arg1) (ix2 o k)
abbrev argWp (c : Dev nD) : Fin 768 → Fin 768 → EReal := fun j k => m ((c : Thread nD τ).loc main_arg2) (ix2 j k)
abbrev argBias (c : Dev nD) : Fin 768 → EReal := fun j => m ((c : Thread nD τ).loc main_arg3) (ix1 j)

/-- The reshaped product of the first kernel is the joint projection. -/
theorem B3_v4_apply (c : Dev nD) (b : Fin 4) (n : Fin 2048) (o : Fin 2304) :
    B3 m ρ c (Proc.devRef .tc main_v4) (ix3 b n o) = Cert.AttnSpec.proj (argX m c) (argWq m c) b n o := by
  rw [B3_v4, B2_v3]
  refine (unflatten_apply _ shapeCasts_S8192x2304_S4x2048x2304 b n o).trans ?_
  refine (prod0_apply _ _ (flatRow b n) o).trans ?_
  rw [B1_v0, B1_v2]
  unfold Cert.AttnSpec.proj
  show @Eq EReal _ _
  refine Finset.sum_congr rfl fun k _ => ?_
  exact congrArg₂ (· * ·) (flatten_apply _ shapeCasts_S4x2048x768_S8192x768 b n k)
    (transpose_ix2_apply _ transposes_S2304x768_S768x2304_1_0 k o)

/-- The attention kernel's array is the specification's merged rows. -/
theorem B4_v5_apply (hval : StoredIsMix) (c : Dev nD) (b : Fin 4) (n : Fin 2048) (k : Fin 768) :
    B4 m ρ c (Proc.devRef .tc main_v5) (ix3 b n k) = Cert.AttnSpec.merged (argX m c) (argWq m c) b n k := by
  rw [B4_v5 m ρ hval]
  refine Eq.trans ?_ (Cert.AttnBridge.mix_eq_merged (argX m c) (argWq m c) b n k (0 : Fin 256))
  unfold attnArr
  refine Cert.AttnBridge.mix_congr (0 : Fin 256) (0 : Fin 256) _ _ (fun z => ?_) (fun r z => ?_) (fun r z => ?_) rfl
  · exact B3_v4_apply m ρ c b n (Cert.AttnBridge.qcol z)
  · exact B3_v4_apply m ρ c b r (Cert.AttnBridge.kcol z)
  · exact B3_v4_apply m ρ c b r (Cert.AttnBridge.vcol z)

/-- THE RESULT: entry (b, n, j) of the program's result array is the specification's. -/
theorem result_apply (hval : StoredIsMix) (c : Dev nD) (b : Fin 4) (n : Fin 2048) (j : Fin 768) :
    B7 m ρ c (Proc.devRef .tc main_v11) (ix3 b n j)
      = Cert.AttnSpec.out (argX m c) (argWq m c) (argWp m c) (argBias m c) b n j := by
  rw [B7_v11, B6_v10]
  refine (unflatten_apply _ shapeCasts_S8192x768_S4x2048x768 b n j).trans ?_
  refine (prod2_apply _ _ _ (flatRow b n) j).trans ?_
  rw [B5_v6, B5_v8, B5_v9, B4_main_arg2, B4_main_arg3]
  unfold Cert.AttnSpec.out
  show @Eq EReal _ _
  refine congrArg₂ (· + ·) (Finset.sum_congr rfl fun k _ => ?_)
    (shapeCast_a_1a_apply _ shapeCasts_S768_S1x768 (0 : Fin 1) j)
  refine congrArg₂ (· * ·) ((flatten_apply _ shapeCasts_S4x2048x768_S8192x768 b n k).trans (B4_v5_apply m ρ hval c b n k))
    (transpose_ix2_apply _ transposes_S768x768_S768x768_1_0 k j)

end Cert.KernelIdeal.Hand

end
-- ==== Proof.RefIsSpec.lean ====
/-
  The reference program's last stage, entry by entry, is the multi-head attention function of the four argument arrays.

  The reference computes the joint projection as one contraction, cuts it into the query, key and value parts, regroups
  each part's 768 columns as 12 heads of 64 lanes and moves the head axis outward; per batch and head it contracts
  queries against keys, scales, subtracts each row's maximum, exponentiates, divides by the row's sum, contracts the
  result against the values, moves the head axis back inward, lays the heads side by side, contracts with the output
  matrix and adds the bias. Each lemma below reads one of these stages at an index given by its coordinates and names the
  value there as the corresponding function of the specification; the regroupings are statements about the row-major
  position of an index (a quotient and a remainder of one natural number), decided by linear arithmetic.
-/
import proofs.«147996_j49383533969427_2_alg».proof.Proof.Gen.ReferenceIdeal.Read
import proofs.«147996_j49383533969427_2_alg».proof.Proof.AttnSpec
import Idealize.ShloMosaic.Lib.ValueIdx
import Idealize.ShloMosaic.PureOps.Ideal.Laws

noncomputable section

open scoped BigOperators

namespace Cert.RefIsSpec

open Idealize.ShloMosaic Idealize.ShloMosaic.ValueIdx Cert.ReferenceIdeal Cert.ReferenceIdeal.Read

variable (x0 : (⟨S4x2048x768, .f32⟩ : BufTy).Contents (Elt Ideal)) (x1 : (⟨S2304x768, .f32⟩ : BufTy).Contents (Elt Ideal))

/-- The input array and the joint projection matrix as functions of their coordinates. -/
local notation "𝐗" => (fun (b : Fin 4) (n : Fin 2048) (c : Fin 768) => x0 (ix3 b n c))
local notation "𝐖" => (fun (o : Fin 2304) (c : Fin 768) => x1 (ix2 o c))

/-- The joint projection: entry (b, n, o) is row n of batch b against row o of the projection matrix. -/
theorem v0_eq (b : Fin 4) (n : Fin 2048) (o : Fin 2304) :
    val_main_v0 (F := Ideal) x0 x1 (ix3 b n o) = Cert.AttnSpec.proj 𝐗 𝐖 b n o := by
  rw [val_main_v0_apply]
  unfold Cert.AttnSpec.proj
  refine Finset.sum_congr rfl fun k _ => ?_
  have el : lidx_main_v0 (ix3 b n o) k = ix3 b n k :=
    funext fun a => Fin.ext (by match a with | ⟨0, _⟩ => rfl | ⟨1, _⟩ => rfl | ⟨2, _⟩ => rfl)
  have er : ridx_main_v0 (ix3 b n o) k = ix2 o k :=
    funext fun a => Fin.ext (by match a with | ⟨0, _⟩ => rfl | ⟨1, _⟩ => rfl)
  rw [el, er]

/-- The queries by head: entry (b, h, n, d) is column h*64 + d of the projection's first part. The row-major position
    of (b, n, h, d) among [4, 2048, 12, 64] is ((b*2048 + n)*12 + h)*64 + d, and its coordinates among [4, 2048, 768]
    are b, n and h*64 + d. -/
theorem v5_eq (b : Fin 4) (h : Fin 12) (n : Fin 2048) (d : Fin 64) :
    val_main_v5 (F := Ideal) x0 x1 (ix4 b h n d) = Cert.AttnSpec.proj 𝐗 𝐖 b n (Cert.AttnSpec.col 0 h d) := by
  rw [val_main_v5_apply, val_main_v4_apply, val_main_v1_apply]
  have e : idx_main_v1 (idx_main_v4 (idx_main_v5 (ix4 b h n d))) = ix3 b n (Cert.AttnSpec.col 0 h d) :=
    funext fun a => Fin.ext (by
      have := b.isLt; have := h.isLt; have := n.isLt; have := d.isLt
      match a with
      | ⟨0, _⟩ => show (((b.val * 2048 + n.val) * 12 + h.val) * 64 + d.val) / 1572864 = b.val; omega
      | ⟨1, _⟩ => show (((b.val * 2048 + n.val) * 12 + h.val) * 64 + d.val) / 768 % 2048 = n.val; omega
      | ⟨2, _⟩ => show (((b.val * 2048 + n.val) * 12 + h.val) * 64 + d.val) % 768 = 0 * 768 + h.val * 64 + d.val; omega)
  rw [e, v0_eq]

/-- The keys by head: the same regrouping of the projection's second part, columns 768 + h*64 + d. -/
theorem v7_eq (b : Fin 4) (h : Fin 12) (n : Fin 2048) (d : Fin 64) :
    val_main_v7 (F := Ideal) x0 x1 (ix4 b h n d) = Cert.AttnSpec.proj 𝐗 𝐖 b n (Cert.AttnSpec.col 1 h d) := by
  rw [val_main_v7_apply, val_main_v6_apply, val_main_v2_apply]
  have e : idx_main_v2 (idx_main_v6 (idx_main_v7 (ix4 b h n d))) = ix3 b n (Cert.AttnSpec.col 1 h d) :=
    funext fun a => Fin.ext (by
      have := b.isLt; have := h.isLt; have := n.isLt; have := d.isLt
      match a with
      | ⟨0, _⟩ => show (((b.val * 2048 + n.val) * 12 + h.val) * 64 + d.val) / 1572864 = b.val; omega
      | ⟨1, _⟩ => show (((b.val * 2048 + n.val) * 12 + h.val) * 64 + d.val) / 768 % 2048 = n.val; omega
      | ⟨2, _⟩ => show 768 + (((b.val * 2048 + n.val) * 12 + h.val) * 64 + d.val) % 768 = 1 * 768 + h.val * 64 + d.val; omega)
  rw [e, v0_eq]

/-- The values by head: the same regrouping of the projection's third part, columns 1536 + h*64 + d. -/
theorem v9_eq (b : Fin 4) (h : Fin 12) (n : Fin 2048) (d : Fin 64) :
    val_main_v9 (F := Ideal) x0 x1 (ix4 b h n d) = Cert.AttnSpec.proj 𝐗 𝐖 b n (Cert.AttnSpec.col 2 h d) := by
  rw [val_main_v9_apply, val_main_v8_apply, val_main_v3_apply]
  have e : idx_main_v3 (idx_main_v8 (idx_main_v9 (ix4 b h n d))) = ix3 b n (Cert.AttnSpec.col 2 h d) :=
    funext fun a => Fin.ext (by
      have := b.isLt; have := h.isLt; have := n.isLt; have := d.isLt
      match a with
      | ⟨0, _⟩ => show (((b.val * 2048 + n.val) * 12 + h.val) * 64 + d.val) / 1572864 = b.val; omega
      | ⟨1, _⟩ => show (((b.val * 2048 + n.val) * 12 + h.val) * 64 + d.val) / 768 % 2048 = n.val; omega
      | ⟨2, _⟩ => show 1536 + (((b.val * 2048 + n.val) * 12 + h.val) * 64 + d.val) % 768 = 2 * 768 + h.val * 64 + d.val; omega)
  rw [e, v0_eq]

/-- Folding the binary maximum from the bottom element over a finite set gives the supremum over the set. -/
private theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word with the sign set, the exponent all ones and the fraction zero is minus infinity. -/
private theorem ofBits_f32_neg_inf : Ideal.ofBits .f32 0xFF800000#32 = (⊥ : EReal) := by
  simp [Ideal.ofBits, Ideal.ieee]

/-- The scaled scores: entry (b, h, n, m) is the 64-lane product of query row n and key row m of head h, times 1/8. -/
theorem v12_eq (b : Fin 4) (h : Fin 12) (n m : Fin 2048) :
    val_main_v12 (F := Ideal) x0 x1 (ix4 b h n m) = Cert.AttnSpec.score 𝐗 𝐖 b h n m := by
  rw [val_main_v12_apply, val_main_v10_apply, val_main_v11_apply, val_main_cst_apply, Ideal.mulf_def]
  unfold Cert.AttnSpec.score
  refine congrArg (· * Cert.AttnSpec.scale) (Finset.sum_congr rfl fun k _ => ?_)
  have el : lidx_main_v10 (ix4 b h n m) k = ix4 b h n k :=
    funext fun a => Fin.ext (by match a with | ⟨0, _⟩ => rfl | ⟨1, _⟩ => rfl | ⟨2, _⟩ => rfl | ⟨3, _⟩ => rfl)
  have er : ridx_main_v10 (ix4 b h n m) k = ix4 b h m k :=
    funext fun a => Fin.ext (by match a with | ⟨0, _⟩ => rfl | ⟨1, _⟩ => rfl | ⟨2, _⟩ => rfl | ⟨3, _⟩ => rfl)
  rw [el, er, v5_eq, v7_eq]

/-- The row maximum: the reduction by maximum over the last axis, started from minus infinity, is at (b, h, n) the
    supremum over m of the scores of row n. The indices that the reduction folds over for (b, h, n) are (b, h, n, m). -/
theorem v13_eq (b : Fin 4) (h : Fin 12) (n : Fin 2048) :
    val_main_v13 (F := Ideal) x0 x1 (ix3 b h n) = Cert.AttnSpec.top 𝐗 𝐖 b h n := by
  unfold val_main_v13
  have hR : S4x12x2048x2048.Reduces [3] S4x12x2048 := by decide
  show Host.reduce (max : EReal → EReal → EReal) (val_main_v12 (F := Ideal) x0 x1) (val_main_cst_0 (F := Ideal)) _ _ (ix3 b h n) = _
  rw [Host.reduce_eq_fold_single (max : EReal → EReal → EReal) _ _ _ hR]
  refine (congrArg (fun z => (Finset.univ : Finset (Fin 2048)).fold max z
    (val_main_v12 (F := Ideal) x0 x1 ∘ hR.lift (ix3 b h n))) ofBits_f32_neg_inf).trans ?_
  refine (fold_max_bot_eq_sup _ _).trans ?_
  unfold Cert.AttnSpec.top
  refine congrArg ((Finset.univ : Finset (Fin 2048)).sup) (funext fun (m : Fin 2048) => ?_)
  have e : hR.lift (ix3 b h n) m = ix4 b h n m :=
    funext fun c => Fin.ext (by match c with | ⟨0, _⟩ => rfl | ⟨1, _⟩ => rfl | ⟨2, _⟩ => rfl | ⟨3, _⟩ => rfl)
  show val_main_v12 (F := Ideal) x0 x1 (hR.lift (ix3 b h n) m) = _
  rw [e, v12_eq]

/-- The maximum of minus infinity and the row maximum is the row maximum. -/
theorem v15_eq (b : Fin 4) (h : Fin 12) (n : Fin 2048) :
    val_main_v15 (F := Ideal) x0 x1 (ix3 b h n) = Cert.AttnSpec.top 𝐗 𝐖 b h n := by
  rw [val_main_v15_apply, val_main_v14_apply, val_main_cst_1_apply, Ideal.maximumf_def, Ideal.ofBits_def,
    ofBits_f32_neg_inf, v13_eq]
  exact max_eq_right bot_le

/-- The unnormalised weights: the row maximum is laid along the last axis, subtracted from the scores, and the
    difference exponentiated. -/
theorem v19_eq (b : Fin 4) (h : Fin 12) (n m : Fin 2048) :
    val_main_v19 (F := Ideal) x0 x1 (ix4 b h n m) = Cert.AttnSpec.weight 𝐗 𝐖 b h n m := by
  rw [val_main_v19_apply, Ideal.hostUnary_exp_def, val_main_v18_apply, Ideal.subf_def, v12_eq, val_main_v17_apply,
    val_main_v16_apply]
  have e : idx_main_v16 (idx_main_v17 (ix4 b h n m)) = ix3 b h n :=
    funext fun a => Fin.ext (by match a with | ⟨0, _⟩ => rfl | ⟨1, _⟩ => rfl | ⟨2, _⟩ => rfl)
  rw [e, v15_eq]
  rfl

/-- The row sums of the weights: the sum over the last axis started from zero. -/
theorem v20_eq (b : Fin 4) (h : Fin 12) (n : Fin 2048) :
    val_main_v20 (F := Ideal) x0 x1 (ix3 b h n) = Cert.AttnSpec.mass 𝐗 𝐖 b h n := by
  rw [val_main_v20_apply, val_main_cst_2_apply, Ideal.ofBits_def, Ideal.ofBits_zero_f32, zero_add]
  unfold Cert.AttnSpec.mass
  refine Finset.sum_congr rfl fun k _ => ?_
  have e : idx_main_v20 (ix3 b h n) k = ix4 b h n k :=
    funext fun a => Fin.ext (by match a with | ⟨0, _⟩ => rfl | ⟨1, _⟩ => rfl | ⟨2, _⟩ => rfl | ⟨3, _⟩ => rfl)
  rw [e, v19_eq]

/-- The normalised weights: each weight over its row's sum. -/
theorem v23_eq (b : Fin 4) (h : Fin 12) (n m : Fin 2048) :
    val_main_v23 (F := Ideal) x0 x1 (ix4 b h n m)
      = Ideal.div (Cert.AttnSpec.weight 𝐗 𝐖 b h n m) (Cert.AttnSpec.mass 𝐗 𝐖 b h n) := by
  rw [val_main_v23_apply, Ideal.hostDivf_def, v19_eq, val_main_v22_apply, val_main_v21_apply]
  have e : idx_main_v21 (idx_main_v22 (ix4 b h n m)) = ix3 b h n :=
    funext fun a => Fin.ext (by match a with | ⟨0, _⟩ => rfl | ⟨1, _⟩ => rfl | ⟨2, _⟩ => rfl)
  rw [e, v20_eq]

/-- Each head's output: the normalised weights of row n against lane d of the value rows. -/
theorem v24_eq (b : Fin 4) (h : Fin 12) (n : Fin 2048) (d : Fin 64) :
    val_main_v24 (F := Ideal) x0 x1 (ix4 b h n d) = Cert.AttnSpec.mix 𝐗 𝐖 b h n d := by
  rw [val_main_v24_apply]
  unfold Cert.AttnSpec.mix
  refine Finset.sum_congr rfl fun k _ => ?_
  have el : lidx_main_v24 (ix4 b h n d) k = ix4 b h n k :=
    funext fun a => Fin.ext (by match a with | ⟨0, _⟩ => rfl | ⟨1, _⟩ => rfl | ⟨2, _⟩ => rfl | ⟨3, _⟩ => rfl)
  have er : ridx_main_v24 (ix4 b h n d) k = ix4 b h k d :=
    funext fun a => Fin.ext (by match a with | ⟨0, _⟩ => rfl | ⟨1, _⟩ => rfl | ⟨2, _⟩ => rfl | ⟨3, _⟩ => rfl)
  rw [el, er, v23_eq, v9_eq]

/-- The heads side by side: the row-major position of (b, n, c) among [4, 2048, 768] is (b*2048 + n)*768 + c, whose
    coordinates among [4, 2048, 12, 64] are b, n, c / 64 and c % 64; the head axis is then read back in second place. -/
theorem v26_eq (b : Fin 4) (n : Fin 2048) (c : Fin 768) :
    val_main_v26 (F := Ideal) x0 x1 (ix3 b n c) = Cert.AttnSpec.merged 𝐗 𝐖 b n c := by
  rw [val_main_v26_apply, val_main_v25_apply]
  have e : idx_main_v25 (idx_main_v26 (ix3 b n c))
      = ix4 b (⟨c.val / 64, by have := c.isLt; omega⟩ : Fin 12) n (⟨c.val % 64, Nat.mod_lt _ (by norm_num)⟩ : Fin 64) :=
    funext fun a => Fin.ext (by
      have := b.isLt; have := n.isLt; have := c.isLt
      match a with
      | ⟨0, _⟩ => show ((b.val * 2048 + n.val) * 768 + c.val) / 1572864 = b.val; omega
      | ⟨1, _⟩ => show ((b.val * 2048 + n.val) * 768 + c.val) / 64 % 12 = c.val / 64; omega
      | ⟨2, _⟩ => show ((b.val * 2048 + n.val) * 768 + c.val) / 768 % 2048 = n.val; omega
      | ⟨3, _⟩ => show ((b.val * 2048 + n.val) * 768 + c.val) % 64 = c.val % 64; omega)
  rw [e, v24_eq]
  rfl

/-- The reference's last stage at (b, n, j): the merged row against row j of the output matrix, plus bias j. -/
theorem ref_out (x2 : (⟨S768x768, .f32⟩ : BufTy).Contents (Elt Ideal)) (x3 : (⟨S768, .f32⟩ : BufTy).Contents (Elt Ideal))
    (b : Fin 4) (n : Fin 2048) (j : Fin 768) :
    val_main_v30 (F := Ideal) x0 x1 x2 x3 (ix3 b n j)
      = Cert.AttnSpec.out (fun b n c => x0 (ix3 b n c)) (fun o c => x1 (ix2 o c)) (fun j c => x2 (ix2 j c)) (fun j => x3 (ix1 j)) b n j := by
  rw [val_main_v30_apply, Ideal.addf_def, val_main_v27_apply, val_main_v29_apply, val_main_v28_apply]
  unfold Cert.AttnSpec.out
  have hb : idx_main_v28 (idx_main_v29 (ix3 b n j)) = ix1 j :=
    funext fun a => Fin.ext (by match a with | ⟨0, _⟩ => rfl)
  rw [hb]
  refine congrArg (· + x3 (ix1 j)) (Finset.sum_congr rfl fun k _ => ?_)
  have el : lidx_main_v27 (ix3 b n j) k = ix3 b n k :=
    funext fun a => Fin.ext (by match a with | ⟨0, _⟩ => rfl | ⟨1, _⟩ => rfl | ⟨2, _⟩ => rfl)
  have er : ridx_main_v27 (ix3 b n j) k = ix2 j k :=
    funext fun a => Fin.ext (by match a with | ⟨0, _⟩ => rfl | ⟨1, _⟩ => rfl)
  rw [el, er, v26_eq]

end Cert.RefIsSpec

end
-- ==== Proof.Claims.lean ====
/-
  The five claims. Each kernel program's frame is its whole run with the four argument arrays followed to the last
  boundary, where they are as launched; the reference's frame is its run with the result dropped. The two idealized
  programs, run from memories that agree on the arguments, end with equal results: the kernel program's result array
  is, entry by entry, the multi-head attention function of the arguments (given that the attention kernel's stored
  block is the block attention of the blocks it loads), and so is the reference's last stage.
-/
import proofs.«147996_j49383533969427_2_alg».proof.Defs
import proofs.«147996_j49383533969427_2_alg».proof.Proof.Gen.Kernel
import proofs.«147996_j49383533969427_2_alg».proof.Proof.Gen.KernelIdeal
import proofs.«147996_j49383533969427_2_alg».proof.Proof.Gen.ReferenceIdeal
import proofs.«147996_j49383533969427_2_alg».proof.Proof.Gen.ReferenceIdeal.Read
import proofs.«147996_j49383533969427_2_alg».proof.Proof.Gen.Pre_finite_inputs
import proofs.«147996_j49383533969427_2_alg».proof.Proof.KernelRun
import proofs.«147996_j49383533969427_2_alg».proof.Proof.KernelIdealResult
import proofs.«147996_j49383533969427_2_alg».proof.Proof.RefIsSpec

set_option maxRecDepth 16384

noncomputable section

namespace Cert.Proof.Claims

open Idealize.ShloMosaic Idealize.ShloMosaic.TcCoe Idealize.SL.Sem Idealize.ShloMosaic.ValueIdx

/-- The word-level kernel program runs to the end, nothing faulting, and leaves the four arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.B7_main_arg0 m ρ c),
     (h c _ (Cert.Kernel.Hand.mem_uc Cert.Kernel.main_arg1 (by decide))).trans (Cert.Kernel.Hand.B7_main_arg1 m ρ c),
     (h c _ (Cert.Kernel.Hand.mem_uc Cert.Kernel.main_arg2 (by decide))).trans (Cert.Kernel.Hand.B7_main_arg2 m ρ c),
     (h c _ (Cert.Kernel.Hand.mem_uc Cert.Kernel.main_arg3 (by decide))).trans (Cert.Kernel.Hand.B7_main_arg3 m ρ c)⟩)
    (Cert.Kernel.Hand.run (F := Bits) m ρ)

/-- The same for the idealized kernel program, on the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.B7_main_arg0 m ρ c),
     (h c _ (Cert.KernelIdeal.Hand.mem_uc Cert.KernelIdeal.main_arg1 (by decide))).trans (Cert.KernelIdeal.Hand.B7_main_arg1 m ρ c),
     (h c _ (Cert.KernelIdeal.Hand.mem_uc Cert.KernelIdeal.main_arg2 (by decide))).trans (Cert.KernelIdeal.Hand.B7_main_arg2 m ρ c),
     (h c _ (Cert.KernelIdeal.Hand.mem_uc Cert.KernelIdeal.main_arg3 (by decide))).trans (Cert.KernelIdeal.Hand.B7_main_arg3 m ρ c)⟩)
    (Cert.KernelIdeal.Hand.run (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the attention function of the arguments, entry by entry. -/
theorem algebraic (hval : Cert.KernelIdeal.Hand.StoredIsMix) : Cert.algebraic_KernelIdeal_ReferenceIdeal := by
  intro m ρ m' ρ' _ hagree
  refine ⟨fun c => Cert.KernelIdeal.Hand.B7 m ρ c (Proc.devRef .tc Cert.KernelIdeal.main_v11), ?_, ?_⟩
  · exact (θ_run Cert.KernelIdeal.defs _ _).mono (fun r h c =>
      ⟨h c _ (Cert.KernelIdeal.Hand.mem_uc Cert.KernelIdeal.main_v11 (by decide)),
       (h c _ (Cert.KernelIdeal.Hand.mem_uc Cert.KernelIdeal.main_arg0 (by decide))).trans (Cert.KernelIdeal.Hand.B7_main_arg0 m ρ c),
       (h c _ (Cert.KernelIdeal.Hand.mem_uc Cert.KernelIdeal.main_arg1 (by decide))).trans (Cert.KernelIdeal.Hand.B7_main_arg1 m ρ c),
       (h c _ (Cert.KernelIdeal.Hand.mem_uc Cert.KernelIdeal.main_arg2 (by decide))).trans (Cert.KernelIdeal.Hand.B7_main_arg2 m ρ c),
       (h c _ (Cert.KernelIdeal.Hand.mem_uc Cert.KernelIdeal.main_arg3 (by decide))).trans (Cert.KernelIdeal.Hand.B7_main_arg3 m ρ c)⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2]
    show _ = (Cert.KernelIdeal.Hand.B7 m ρ c (Proc.devRef .tc Cert.KernelIdeal.main_v11) : Cert.KernelIdeal.S4x2048x768.Idx → EReal)
    funext i
    obtain ⟨b, n, j, rfl⟩ : ∃ (b : Fin 4) (n : Fin 2048) (j : Fin 768), i = ix3 b n j := ⟨i 0, i 1, i 2, eq_ix3 i⟩
    exact (Cert.RefIsSpec.ref_out _ _ _ _ b n j).trans (Cert.KernelIdeal.Hand.result_apply m ρ hval c b n j).symm

end Cert.Proof.Claims

end
-- ==== Proof.KernelIdealAttnValue.lean ====
/-
  The value the attention body stores, read at an index. The body cuts each of the three loaded blocks into twelve heads of
  64 columns; per head it multiplies the query slice against the key slice over the 64 lanes and scales by 1/8, subtracts
  each row's maximum, exponentiates, divides each row by its sum, and multiplies the result against the value slice; the
  twelve [256, 64] results are laid side by side and given a leading unit axis.

  Here one head is written once as a function of its three slices, in five small stages (scores, shifted exponentials, row
  sums, normalisation, product with the values), and each stage is read at an index at the ideal (extended real) values:
  a matrix product is a finite sum, a reduction by maximum from minus infinity is a supremum, a reduction by addition from
  zero is a sum, and the rounding to the narrower format is the identity. The stored value is, by unfolding the generated
  steps, the twelve heads side by side; column c of the result lies in head c / 64 at lane c % 64, and a slice starting at
  column h * 64 reads the loaded block at column h * 64 + d. Together these give entry (r, c) of the stored value as entry
  (r, c) of the block specification: the sum over the key rows m of the normalised exponential weight of m for row r in
  the head of c, times the value block's entry (m, c).
-/
import proofs.«147996_j49383533969427_2_alg».proof.Proof.KernelIdealAttnBody
import proofs.«147996_j49383533969427_2_alg».proof.Proof.AttnBlock
import proofs.«147996_j49383533969427_2_alg».proof.Proof.LibRowReduceProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The scaled scores of one head: the query slice against the key slice, both contracted over their 64 lanes, times 1/8. -/
def headScores (qs : FVec Ideal S256x64 .bf16) (ks : FVec Ideal S2048x64 .bf16) : FVec Ideal S256x2048 .f32 :=
  mulf (matmul dot_S256x64_S2048x64_S256x2048_1_1_0_0_n_n none qs ks (constant (F := Ideal) S256x2048 .f32 0x00000000#32))
    (broadcast S256x2048 (Scalar.ofBits (F := Ideal) .f32 0x3E000000#32))

/-- The scores shifted by their row maximum and exponentiated. -/
def headExp (sc : FVec Ideal S256x2048 .f32) : FVec Ideal S256x2048 .f32 :=
  exp (subf sc (broadcastTo S256x2048
    (shapeCast S256x1 (multiReduction (F := Ideal) .maximumf [1] S256 sc 0xFF800000#32 reduces_S256x2048_S256 (.inl rfl) rfl) shapeCasts_S256_S256x1)
    broadcasts_S256x1_S256x2048))

/-- The row sums. -/
def headSum (ex : FVec Ideal S256x2048 .f32) : FVec Ideal S256 .f32 :=
  multiReduction (F := Ideal) .add [1] S256 ex 0x00000000#32 reduces_S256x2048_S256 (.inl rfl) rfl

/-- Each row divided by its sum. -/
def headNorm (ex : FVec Ideal S256x2048 .f32) (su : FVec Ideal S256 .f32) : FVec Ideal S256x2048 .f32 :=
  divf ex (broadcastTo S256x2048 (shapeCast S256x1 su shapeCasts_S256_S256x1) broadcasts_S256x1_S256x2048)

/-- The weights against the value slice. -/
def headOut (w : FVec Ideal S256x2048 .f32) (vs : FVec Ideal S2048x64 .bf16) : FVec Ideal S256x64 .bf16 :=
  truncf .bf16 (matmul dot_S256x2048_S2048x64_S256x64_1_0_0_1_n_n none (truncf .bf16 w bitsLt_bf16_f32) vs
    (constant (F := Ideal) S256x64 .f32 0x00000000#32)) bitsLt_bf16_f32

/-- One head's [256, 64] result from its three slices. -/
def headVal (qs : FVec Ideal S256x64 .bf16) (ks vs : FVec Ideal S2048x64 .bf16) : FVec Ideal S256x64 .bf16 :=
  headOut (headNorm (headExp (headScores qs ks)) (headSum (headExp (headScores qs ks)))) vs

/-- The head whose columns start at off, from the three loaded blocks. -/
def headAt (v0 : Vec Ideal S1x256x768 .bf16) (v2 v4 : Vec Ideal S1x2048x768 .bf16) (off : Nat)
    (hq : S256x768.Slices ![0, off] S256x64) (hk : S2048x768.Slices ![0, off] S2048x64) : FVec Ideal S256x64 .bf16 :=
  headVal (extractStridedSlice S256x64 ![0, off] (k1_pay1 (F := Ideal) v0) hq)
    (extractStridedSlice S2048x64 ![0, off] (k1_pay2 (F := Ideal) v2) hk)
    (extractStridedSlice S2048x64 ![0, off] (k1_pay3 (F := Ideal) v4) hk)

/-- The twelve heads in column order, each with its shape. -/
def headList (v0 : Vec Ideal S1x256x768 .bf16) (v2 v4 : Vec Ideal S1x2048x768 .bf16) : List ((s : Shape) × (s.Idx → Ideal .bf16)) :=
  [⟨S256x64, headAt v0 v2 v4 0 slices_S256x768_o0_0_S256x64 slices_S2048x768_o0_0_S2048x64⟩,
    ⟨S256x64, headAt v0 v2 v4 64 slices_S256x768_o0_64_S256x64 slices_S2048x768_o0_64_S2048x64⟩,
    ⟨S256x64, headAt v0 v2 v4 128 slices_S256x768_o0_128_S256x64 slices_S2048x768_o0_128_S2048x64⟩,
    ⟨S256x64, headAt v0 v2 v4 192 slices_S256x768_o0_192_S256x64 slices_S2048x768_o0_192_S2048x64⟩,
    ⟨S256x64, headAt v0 v2 v4 256 slices_S256x768_o0_256_S256x64 slices_S2048x768_o0_256_S2048x64⟩,
    ⟨S256x64, headAt v0 v2 v4 320 slices_S256x768_o0_320_S256x64 slices_S2048x768_o0_320_S2048x64⟩,
    ⟨S256x64, headAt v0 v2 v4 384 slices_S256x768_o0_384_S256x64 slices_S2048x768_o0_384_S2048x64⟩,
    ⟨S256x64, headAt v0 v2 v4 448 slices_S256x768_o0_448_S256x64 slices_S2048x768_o0_448_S2048x64⟩,
    ⟨S256x64, headAt v0 v2 v4 512 slices_S256x768_o0_512_S256x64 slices_S2048x768_o0_512_S2048x64⟩,
    ⟨S256x64, headAt v0 v2 v4 576 slices_S256x768_o0_576_S256x64 slices_S2048x768_o0_576_S2048x64⟩,
    ⟨S256x64, headAt v0 v2 v4 640 slices_S256x768_o0_640_S256x64 slices_S2048x768_o0_640_S2048x64⟩,
    ⟨S256x64, headAt v0 v2 v4 704 slices_S256x768_o0_704_S256x64 slices_S2048x768_o0_704_S2048x64⟩]

/-- The twelve heads side by side, as a [1, 256, 768] block. -/
def catVal (v0 : Vec Ideal S1x256x768 .bf16) (v2 v4 : Vec Ideal S1x2048x768 .bf16) : FVec Ideal S1x256x768 .bf16 :=
  shapeCast S1x256x768 (concatenate S256x768 1 (headList v0 v2 v4)
    concatenates_S256x64_S256x64_S256x64_S256x64_S256x64_S256x64_S256x64_S256x64_S256x64_S256x64_S256x64_S256x64_S256x768_d1) shapeCasts_S256x768_S1x256x768

/-- The stored value is the twelve heads side by side: the body's steps, regrouped head by head. -/
theorem attnVal_eq_cat (v0 : Vec Ideal S1x256x768 .bf16) (v2 v4 : Vec Ideal S1x2048x768 .bf16) :
    attnVal (F := Ideal) v0 v2 v4 = catVal v0 v2 v4 := rfl

/-! ## One head read at an index -/

/-- A [256] vector given a trailing unit axis and then broadcast along the rows reads, at (r, m), the vector at r. -/
theorem keepDims_apply {α : Type} (x : S256.Idx → α) (r : Fin 256) (m : Fin 2048) :
    broadcastTo S256x2048 (shapeCast S256x1 x shapeCasts_S256_S256x1) broadcasts_S256x1_S256x2048 (ix2 r m) = x (ix1 r) := by
  refine (broadcastTo_apply _ broadcasts_S256x1_S256x2048 (ix2 r m) (ix2 r (0 : Fin 1)) fun ax => ?_).trans ?_
  · match ax with
    | ⟨0, _⟩ => rfl
    | ⟨1, _⟩ => rfl
  · refine shapeCast_apply x shapeCasts_S256_S256x1 (ix2 r (0 : Fin 1)) (ix1 r) ?_
    rw [Shape.rowMajor_val_one, Shape.rowMajor_val_two]
    show r.val = r.val * 1 + 0
    omega

/-- The scaled score of query row r against key row m. -/
theorem headScores_apply (qs : FVec Ideal S256x64 .bf16) (ks : FVec Ideal S2048x64 .bf16) (r : Fin 256) (m : Fin 2048) :
    headScores qs ks (ix2 r m) = (∑ d : Fin 64, qs (ix2 r d) * ks (ix2 m d)) * Ideal.ofBits .f32 0x3E000000#32 :=
  congrArg (fun z : EReal => z * Ideal.ofBits .f32 0x3E000000#32)
    (Cert.LibRowReduceProducts.matmulNT dot_S256x64_S2048x64_S256x2048_1_1_0_0_n_n rfl rfl rfl rfl rfl rfl none qs ks r m)

/-- The exponential of a score less its row's supremum. -/
theorem headExp_apply (sc : FVec Ideal S256x2048 .f32) (r : Fin 256) (m : Fin 2048) :
    headExp sc (ix2 r m) = Ideal.exp (sc (ix2 r m) - Finset.univ.sup fun m' : Fin 2048 => sc (ix2 r m')) :=
  congrArg (fun z : EReal => Ideal.exp (sc (ix2 r m) - z))
    ((keepDims_apply _ r m).trans (Cert.LibRowReduceProducts.rowMax_apply sc reduces_S256x2048_S256 (.inl rfl) rfl r))

/-- The sum of a row. -/
theorem headSum_apply (ex : FVec Ideal S256x2048 .f32) (r : Fin 256) :
    headSum ex (ix1 r) = ∑ m : Fin 2048, ex (ix2 r m) :=
  Cert.LibRowReduceProducts.rowSum_apply ex reduces_S256x2048_S256 (.inl rfl) rfl r

/-- An entry over its row's sum. -/
theorem headNorm_apply (ex : FVec Ideal S256x2048 .f32) (su : FVec Ideal S256 .f32) (r : Fin 256) (m : Fin 2048) :
    headNorm ex su (ix2 r m) = Ideal.div (ex (ix2 r m)) (su (ix1 r)) :=
  congrArg (fun z : EReal => Ideal.div (ex (ix2 r m)) z) (keepDims_apply su r m)

/-- The weights' row r against the value slice's column d. -/
theorem headOut_apply (w : FVec Ideal S256x2048 .f32) (vs : FVec Ideal S2048x64 .bf16) (r : Fin 256) (d : Fin 64) :
    headOut w vs (ix2 r d) = ∑ m : Fin 2048, w (ix2 r m) * vs (ix2 m d) :=
  Cert.LibRowReduceProducts.matmulNN dot_S256x2048_S2048x64_S256x64_1_0_0_1_n_n rfl rfl rfl rfl rfl rfl none
    (truncf .bf16 w bitsLt_bf16_f32) vs r d

/-- One head at (r, d): the normalised exponentials of row r's shifted scores against column d of the value slice. -/
theorem headVal_apply (qs : FVec Ideal S256x64 .bf16) (ks vs : FVec Ideal S2048x64 .bf16) (r : Fin 256) (d : Fin 64) :
    headVal qs ks vs (ix2 r d)
      = ∑ m : Fin 2048, Ideal.div (headExp (headScores qs ks) (ix2 r m)) (∑ m' : Fin 2048, headExp (headScores qs ks) (ix2 r m'))
          * vs (ix2 m d) := by
  refine (headOut_apply _ vs r d).trans (Finset.sum_congr rfl fun m _ => ?_)
  refine congrArg (fun z : EReal => z * vs (ix2 m d)) ?_
  refine (headNorm_apply _ _ r m).trans ?_
  exact congrArg (fun z : EReal => Ideal.div (headExp (headScores qs ks) (ix2 r m)) z) (headSum_apply _ r)

/-! ## The heads against the specification -/

/-- Every column is some head's lane. -/
theorem exists_hcol (c : Fin 768) : ∃ (h : Fin 12) (d : Fin 64), c = Cert.AttnBlock.hcol h d :=
  ⟨⟨c.val / 64, by have := c.isLt; omega⟩, ⟨c.val % 64, Nat.mod_lt _ (by decide)⟩,
    Fin.ext (by show c.val = c.val / 64 * 64 + c.val % 64; omega)⟩

/-- The head of head h's lane d is h. -/
theorem headOf_hcol (h : Fin 12) (d : Fin 64) : Cert.AttnBlock.headOf (Cert.AttnBlock.hcol h d) = h :=
  Fin.ext (by show (h.val * 64 + d.val) / 64 = h.val; have := d.isLt; omega)

/-- Head h's slice of the query block at (r, d) is the loaded block at row r, column hcol h d. -/
theorem qSlice_apply (v0 : Vec Ideal S1x256x768 .bf16) (h : Fin 12) (off : Nat) (hoff : h.val * 64 = off)
    (hq : S256x768.Slices ![0, off] S256x64) (r : Fin 256) (d : Fin 64) :
    extractStridedSlice S256x64 ![0, off] (k1_pay1 (F := Ideal) v0) hq (ix2 r d)
      = v0 (ix3 (0 : Fin 1) r (Cert.AttnBlock.hcol h d)) := by
  subst hoff
  exact (slice2_axis1_apply (h.val * 64) _ hq r d (Cert.AttnBlock.hcol h d) rfl).trans
    (shapeCast_1ab_ab_apply v0 shapeCasts_S1x256x768_S256x768 r _)

/-- Head h's slice of the key block at (m, d). -/
theorem kSlice_apply (v2 : Vec Ideal S1x2048x768 .bf16) (h : Fin 12) (off : Nat) (hoff : h.val * 64 = off)
    (hk : S2048x768.Slices ![0, off] S2048x64) (m : Fin 2048) (d : Fin 64) :
    extractStridedSlice S2048x64 ![0, off] (k1_pay2 (F := Ideal) v2) hk (ix2 m d)
      = v2 (ix3 (0 : Fin 1) m (Cert.AttnBlock.hcol h d)) := by
  subst hoff
  exact (slice2_axis1_apply (h.val * 64) _ hk m d (Cert.AttnBlock.hcol h d) rfl).trans
    (shapeCast_1ab_ab_apply v2 shapeCasts_S1x2048x768_S2048x768 m _)

/-- Head h's slice of the value block at (m, d). -/
theorem vSlice_apply (v4 : Vec Ideal S1x2048x768 .bf16) (h : Fin 12) (off : Nat) (hoff : h.val * 64 = off)
    (hk : S2048x768.Slices ![0, off] S2048x64) (m : Fin 2048) (d : Fin 64) :
    extractStridedSlice S2048x64 ![0, off] (k1_pay3 (F := Ideal) v4) hk (ix2 m d)
      = v4 (ix3 (0 : Fin 1) m (Cert.AttnBlock.hcol h d)) := by
  subst hoff
  exact (slice2_axis1_apply (h.val * 64) _ hk m d (Cert.AttnBlock.hcol h d) rfl).trans
    (shapeCast_1ab_ab_apply v4 shapeCasts_S1x2048x768_S2048x768 m _)

/-- One head at (r, d) once its scores and its value column are known: the normalised exponentials of the shifted
    scores against the value column. -/
theorem headVal_eq_of_scores (qs : FVec Ideal S256x64 .bf16) (ks vs : FVec Ideal S2048x64 .bf16) (r : Fin 256) (d : Fin 64)
    (s u : Fin 2048 → EReal) (hs : ∀ m : Fin 2048, headScores qs ks (ix2 r m) = s m) (hu : ∀ m : Fin 2048, vs (ix2 m d) = u m) :
    headVal qs ks vs (ix2 r d)
      = ∑ m : Fin 2048, Ideal.div (Ideal.exp (s m - Finset.univ.sup s)) (∑ m' : Fin 2048, Ideal.exp (s m' - Finset.univ.sup s)) * u m := by
  have hE : ∀ m : Fin 2048, headExp (headScores qs ks) (ix2 r m) = Ideal.exp (s m - Finset.univ.sup s) := fun m =>
    (headExp_apply _ r m).trans (congrArg₂ (fun a b : EReal => Ideal.exp (a - b)) (hs m) (congrArg Finset.univ.sup (funext hs)))
  refine (headVal_apply qs ks vs r d).trans (Finset.sum_congr rfl fun m _ => ?_)
  exact congrArg₂ (fun a b : EReal => a * b)
    (congrArg₂ Ideal.div (hE m) (Finset.sum_congr rfl fun m' _ => hE m')) (hu m)

/-- The head whose columns start at h * 64, at (r, d), is the specification's entry (r, hcol h d). -/
theorem headAt_apply (v0 : Vec Ideal S1x256x768 .bf16) (v2 v4 : Vec Ideal S1x2048x768 .bf16) (h : Fin 12) (off : Nat)
    (hoff : h.val * 64 = off) (hq : S256x768.Slices ![0, off] S256x64) (hk : S2048x768.Slices ![0, off] S2048x64)
    (r : Fin 256) (d : Fin 64) :
    headAt v0 v2 v4 off hq hk (ix2 r d)
      = Cert.AttnBlock.mix (fun r c => v0 (ix3 (0 : Fin 1) r c)) (fun m c => v2 (ix3 (0 : Fin 1) m c))
          (fun m c => v4 (ix3 (0 : Fin 1) m c)) r (Cert.AttnBlock.hcol h d) := by
  refine (headVal_eq_of_scores _ _ _ r d
    (fun m => Cert.AttnBlock.score (fun r c => v0 (ix3 (0 : Fin 1) r c)) (fun m c => v2 (ix3 (0 : Fin 1) m c)) h r m)
    (fun m => v4 (ix3 (0 : Fin 1) m (Cert.AttnBlock.hcol h d)))
    (fun m => (headScores_apply _ _ r m).trans (congrArg (fun z : EReal => z * Ideal.ofBits .f32 0x3E000000#32)
      (Finset.sum_congr rfl fun d' _ => congrArg₂ (fun a b : EReal => a * b)
        (qSlice_apply v0 h off hoff hq r d') (kSlice_apply v2 h off hoff hk m d'))))
    (fun m => vSlice_apply v4 h off hoff hk m d)).trans ?_
  show _ = ∑ m : Fin 2048, Ideal.div
      (Cert.AttnBlock.weight (fun r c => v0 (ix3 (0 : Fin 1) r c)) (fun m c => v2 (ix3 (0 : Fin 1) m c))
        (Cert.AttnBlock.headOf (Cert.AttnBlock.hcol h d)) r m)
      (Cert.AttnBlock.mass (fun r c => v0 (ix3 (0 : Fin 1) r c)) (fun m c => v2 (ix3 (0 : Fin 1) m c))
        (Cert.AttnBlock.headOf (Cert.AttnBlock.hcol h d)) r) * v4 (ix3 (0 : Fin 1) m (Cert.AttnBlock.hcol h d))
  rw [headOf_hcol]
  rfl

/-! ## The twelve heads side by side -/

/-- Piece k of a concatenation along the columns of twelve [256, 64] pieces, read at row r, lane d of head k. -/
theorem cat_at {α : Type} (xs : List ((s : Shape) × (s.Idx → α))) (hc : Shape.Concatenates (xs.map (·.1)) S256x768 1)
    (hall : xs.map (·.1) = List.replicate 12 S256x64)
    (k : Nat) (hk : k < xs.length) (x₁ : S256x64.Idx → α) (hxk : xs[k] = ⟨S256x64, x₁⟩)
    (hk12 : k < 12) (r : Fin 256) (d : Fin 64) :
    concatenate S256x768 1 xs hc (ix2 r (Cert.AttnBlock.hcol ⟨k, hk12⟩ d)) = x₁ (ix2 r d) := by
  have hpre : (((xs.take k).map (·.1)).map fun s => if h : s.rank = S256x768.rank then s.size ((1 : Fin S256x768.rank).cast h.symm) else 0).sum = k * 64 := by
    rw [List.map_take, hall, List.take_replicate, List.map_replicate, List.sum_replicate, Nat.min_eq_left (Nat.le_of_lt hk12), smul_eq_mul]
    rfl
  refine concatenate_apply_piece 1 xs hc _ k hk S256x64 x₁ hxk rfl (k * 64) hpre (ix2 r d) (fun b hb => ?_) rfl
  match b with
  | ⟨0, _⟩ => rfl
  | ⟨1, _⟩ => exact absurd rfl hb

/-- The twelve heads all have the shape [256, 64]. -/
theorem headList_shapes (v0 : Vec Ideal S1x256x768 .bf16) (v2 v4 : Vec Ideal S1x2048x768 .bf16) :
    (headList v0 v2 v4).map (·.1) = List.replicate 12 S256x64 := rfl

/-- Head k of the twelve, read through the concatenation at (r, hcol k d), is the specification's entry there. -/
theorem catHead (v0 : Vec Ideal S1x256x768 .bf16) (v2 v4 : Vec Ideal S1x2048x768 .bf16) (r : Fin 256) (d : Fin 64)
    (k : Nat) (hh : k < 12) (hl : k < (headList v0 v2 v4).length) (off : Nat)
    (hq : S256x768.Slices ![0, off] S256x64) (hk : S2048x768.Slices ![0, off] S2048x64)
    (hxk : (headList v0 v2 v4)[k] = ⟨S256x64, headAt v0 v2 v4 off hq hk⟩)
    (hoff : k * 64 = off) :
    concatenate S256x768 1 (headList v0 v2 v4)
      concatenates_S256x64_S256x64_S256x64_S256x64_S256x64_S256x64_S256x64_S256x64_S256x64_S256x64_S256x64_S256x64_S256x768_d1 (ix2 r (Cert.AttnBlock.hcol ⟨k, hh⟩ d))
      = Cert.AttnBlock.mix (fun r c => v0 (ix3 (0 : Fin 1) r c)) (fun m c => v2 (ix3 (0 : Fin 1) m c)) (fun m c => v4 (ix3 (0 : Fin 1) m c)) r (Cert.AttnBlock.hcol ⟨k, hh⟩ d) :=
  (cat_at (headList v0 v2 v4) concatenates_S256x64_S256x64_S256x64_S256x64_S256x64_S256x64_S256x64_S256x64_S256x64_S256x64_S256x64_S256x64_S256x768_d1 (headList_shapes v0 v2 v4) k hl (headAt v0 v2 v4 off hq hk) hxk hh r d).trans
    (headAt_apply v0 v2 v4 ⟨k, hh⟩ off hoff hq hk r d)

/-- The concatenation of the twelve heads at (r, hcol h d) is the specification's entry there. -/
theorem cat_heads (v0 : Vec Ideal S1x256x768 .bf16) (v2 v4 : Vec Ideal S1x2048x768 .bf16) (r : Fin 256) (d : Fin 64) :
    ∀ h : Fin 12, concatenate S256x768 1 (headList v0 v2 v4)
      concatenates_S256x64_S256x64_S256x64_S256x64_S256x64_S256x64_S256x64_S256x64_S256x64_S256x64_S256x64_S256x64_S256x768_d1 (ix2 r (Cert.AttnBlock.hcol h d))
      = Cert.AttnBlock.mix (fun r c => v0 (ix3 (0 : Fin 1) r c)) (fun m c => v2 (ix3 (0 : Fin 1) m c)) (fun m c => v4 (ix3 (0 : Fin 1) m c)) r (Cert.AttnBlock.hcol h d) := by
  intro h
  obtain ⟨k, hh⟩ := h
  interval_cases k
  · exact catHead v0 v2 v4 r d 0 hh hh 0 slices_S256x768_o0_0_S256x64 slices_S2048x768_o0_0_S2048x64 rfl rfl
  · exact catHead v0 v2 v4 r d 1 hh hh 64 slices_S256x768_o0_64_S256x64 slices_S2048x768_o0_64_S2048x64 rfl rfl
  · exact catHead v0 v2 v4 r d 2 hh hh 128 slices_S256x768_o0_128_S256x64 slices_S2048x768_o0_128_S2048x64 rfl rfl
  · exact catHead v0 v2 v4 r d 3 hh hh 192 slices_S256x768_o0_192_S256x64 slices_S2048x768_o0_192_S2048x64 rfl rfl
  · exact catHead v0 v2 v4 r d 4 hh hh 256 slices_S256x768_o0_256_S256x64 slices_S2048x768_o0_256_S2048x64 rfl rfl
  · exact catHead v0 v2 v4 r d 5 hh hh 320 slices_S256x768_o0_320_S256x64 slices_S2048x768_o0_320_S2048x64 rfl rfl
  · exact catHead v0 v2 v4 r d 6 hh hh 384 slices_S256x768_o0_384_S256x64 slices_S2048x768_o0_384_S2048x64 rfl rfl
  · exact catHead v0 v2 v4 r d 7 hh hh 448 slices_S256x768_o0_448_S256x64 slices_S2048x768_o0_448_S2048x64 rfl rfl
  · exact catHead v0 v2 v4 r d 8 hh hh 512 slices_S256x768_o0_512_S256x64 slices_S2048x768_o0_512_S2048x64 rfl rfl
  · exact catHead v0 v2 v4 r d 9 hh hh 576 slices_S256x768_o0_576_S256x64 slices_S2048x768_o0_576_S2048x64 rfl rfl
  · exact catHead v0 v2 v4 r d 10 hh hh 640 slices_S256x768_o0_640_S256x64 slices_S2048x768_o0_640_S2048x64 rfl rfl
  · exact catHead v0 v2 v4 r d 11 hh hh 704 slices_S256x768_o0_704_S256x64 slices_S2048x768_o0_704_S2048x64 rfl rfl

/-- The value the body stores, at row r and column c: the specification's entry (r, c) of the three loaded blocks. -/
theorem attnVal_apply (v0 : Vec Ideal S1x256x768 .bf16) (v2 v4 : Vec Ideal S1x2048x768 .bf16) (r : Fin 256) (c : Fin 768) :
    attnVal (F := Ideal) v0 v2 v4 (ix3 (0 : Fin 1) r c)
      = Cert.AttnBlock.mix (fun r c => v0 (ix3 (0 : Fin 1) r c)) (fun m c => v2 (ix3 (0 : Fin 1) m c)) (fun m c => v4 (ix3 (0 : Fin 1) m c)) r c := by
  obtain ⟨h, d, rfl⟩ := exists_hcol c
  refine (congrFun (attnVal_eq_cat v0 v2 v4) _).trans ?_
  refine (shapeCast_ab_1ab_apply _ shapeCasts_S256x768_S1x256x768 (0 : Fin 1) r _).trans ?_
  exact cat_heads v0 v2 v4 r d h

end Cert.KernelIdeal.Hand

end
-- ==== Proof.lean ====
/-
  Multi-head self-attention computed by three kernels — a joint query/key/value projection, a per-head softmax
  attention over 256-row blocks, an output projection with bias — against the reference that computes the same
  function with whole-array contractions. On the extended reals a change of float format is the identity and every
  sum is a finite sum, so the kernel program's blocks assemble to exactly the reference's function: the projection
  blocks are restrictions of one matrix product, each attention block is the attention of its query rows against its
  batch's keys and values head by head, and the reshapes between [4, 2048, d] and [8192, d] keep row-major positions.
  The three frames follow each program's buffers from launch to its last boundary; the idealized kernel program is
  the word-level program's own text, so nothing is owed for the idealization.
-/
import proofs.«147996_j49383533969427_2_alg».proof.Defs
import proofs.«147996_j49383533969427_2_alg».proof.Proof.Claims
import proofs.«147996_j49383533969427_2_alg».proof.Proof.KernelIdealAttnValue

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic Cert.KernelIdeal.Hand.attnVal_apply⟩

end Cert.Proof

end
